-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S4000x128 : Shape := ⟨2, ![4000, 128]⟩
abbrev S1100000x128 : Shape := ⟨2, ![1100000, 128]⟩
abbrev S1x128 : Shape := ⟨2, ![1, 128]⟩
abbrev S100000x64 : Shape := ⟨2, ![100000, 64]⟩
abbrev S4000x64 : Shape := ⟨2, ![4000, 64]⟩
abbrev S1100000x64 : Shape := ⟨2, ![1100000, 64]⟩
abbrev S1x64 : Shape := ⟨2, ![1, 64]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x128, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x128, .f32⟩
  | .hbm, ⟨59, _⟩ => ⟨S1100000x1, .f32⟩
  | .hbm, ⟨60, _⟩ => ⟨S1100000x128, .f32⟩
  | .hbm, ⟨61, _⟩ => ⟨S1100000x128, .f32⟩
  | .hbm, ⟨62, _⟩ => ⟨S_, .f32⟩
  | .hbm, ⟨63, _⟩ => ⟨S100000x128, .f32⟩
  | .hbm, ⟨64, _⟩ => ⟨S1100000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1100000, .i32⟩
  | .hbm, ⟨71, _⟩ => ⟨S1100000, .i1⟩
  | .hbm, ⟨72, _⟩ => ⟨S_, .i32⟩
  | .hbm, ⟨73, _⟩ => ⟨S1100000, .i32⟩
  | .hbm, ⟨74, _⟩ => ⟨S1100000, .i32⟩
  | .hbm, ⟨75, _⟩ => ⟨S1100000, .i32⟩
  | .hbm, ⟨76, _⟩ => ⟨S1100000x1, .i32⟩
  | .hbm, ⟨77, _⟩ => ⟨S1100000x64, .f32⟩
  | .hbm, ⟨78, _⟩ => ⟨S1100000x1, .f32⟩
  | .hbm, ⟨79, _⟩ => ⟨S1100000x64, .f32⟩
  | .hbm, ⟨80, _⟩ => ⟨S1100000x64, .f32⟩
  | .hbm, ⟨81, _⟩ => ⟨S_, .f32⟩
  | .hbm, ⟨82, _⟩ => ⟨S100000x64, .f32⟩
  | .hbm, ⟨83, _⟩ => ⟨S1100000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1100000, .i32⟩
  | .hbm, ⟨90, _⟩ => ⟨S1100000, .i1⟩
  | .hbm, ⟨91, _⟩ => ⟨S_, .i32⟩
  | .hbm, ⟨92, _⟩ => ⟨S1100000, .i32⟩
  | .hbm, ⟨93, _⟩ => ⟨S1100000, .i32⟩
  | .hbm, ⟨94, _⟩ => ⟨S1100000, .i32⟩
  | .hbm, ⟨95, _⟩ => ⟨S1100000x1, .i32⟩
  | .hbm, ⟨96, _⟩ => ⟨S1100000x64, .f32⟩
  | .hbm, ⟨97, _⟩ => ⟨S1100000x1, .f32⟩
  | .hbm, ⟨98, _⟩ => ⟨S1100000x64, .f32⟩
  | .hbm, ⟨99, _⟩ => ⟨S1100000x64, .f32⟩
  | .hbm, ⟨100, _⟩ => ⟨S_, .f32⟩
  | .hbm, ⟨101, _⟩ => ⟨S100000x64, .f32⟩
  | .hbm, ⟨102, _⟩ => ⟨S1100000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S64x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S4000x128_S128x128_S4000x128_1_0_0_1_n_n_wf : DotDims.WF S4000x128 S128x128 S4000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S4000x128_S128x64_S4000x64_1_0_0_1_n_n_wf : DotDims.WF S4000x128 S128x64 S4000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S4000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x64 : Shape := ⟨2, ![100000, 64]⟩
abbrev S1100000x64 : Shape := ⟨2, ![1100000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000, .f32⟩
  | .hbm, ⟨39, _⟩ => ⟨S_, .i32⟩
  | .hbm, ⟨40, _⟩ => ⟨S1100000, .i32⟩
  | .hbm, ⟨41, _⟩ => ⟨S1100000, .i1⟩
  | .hbm, ⟨42, _⟩ => ⟨S_, .i32⟩
  | .hbm, ⟨43, _⟩ => ⟨S1100000, .i32⟩
  | .hbm, ⟨44, _⟩ => ⟨S1100000, .i32⟩
  | .hbm, ⟨45, _⟩ => ⟨S1100000, .i32⟩
  | .hbm, ⟨46, _⟩ => ⟨S1100000x1, .i32⟩
  | .hbm, ⟨47, _⟩ => ⟨S1100000, .f32⟩
  | .hbm, ⟨48, _⟩ => ⟨S1100000, .f32⟩
  | .hbm, ⟨49, _⟩ => ⟨S100000x128, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x128, .f32⟩
  | .hbm, ⟨59, _⟩ => ⟨S1100000x1, .f32⟩
  | .hbm, ⟨60, _⟩ => ⟨S1100000x128, .f32⟩
  | .hbm, ⟨61, _⟩ => ⟨S1100000x128, .f32⟩
  | .hbm, ⟨62, _⟩ => ⟨S_, .f32⟩
  | .hbm, ⟨63, _⟩ => ⟨S100000x128, .f32⟩
  | .hbm, ⟨64, _⟩ => ⟨S1100000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x64, .f32⟩
  | .hbm, ⟨82, _⟩ => ⟨S1100000x1, .f32⟩
  | .hbm, ⟨83, _⟩ => ⟨S1100000x64, .f32⟩
  | .hbm, ⟨84, _⟩ => ⟨S1100000x64, .f32⟩
  | .hbm, ⟨85, _⟩ => ⟨S_, .f32⟩
  | .hbm, ⟨86, _⟩ => ⟨S100000x64, .f32⟩
  | .hbm, ⟨87, _⟩ => ⟨S1100000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .i32⟩
  | .hbm, ⟨97, _⟩ => ⟨S1100000, .i32⟩
  | .hbm, ⟨98, _⟩ => ⟨S1100000, .i1⟩
  | .hbm, ⟨99, _⟩ => ⟨S_, .i32⟩
  | .hbm, ⟨100, _⟩ => ⟨S1100000, .i32⟩
  | .hbm, ⟨101, _⟩ => ⟨S1100000, .i32⟩
  | .hbm, ⟨102, _⟩ => ⟨S1100000, .i32⟩
  | .hbm, ⟨103, _⟩ => ⟨S1100000x1, .i32⟩
  | .hbm, ⟨104, _⟩ => ⟨S1100000x64, .f32⟩
  | .hbm, ⟨105, _⟩ => ⟨S1100000x1, .f32⟩
  | .hbm, ⟨106, _⟩ => ⟨S1100000x64, .f32⟩
  | .hbm, ⟨107, _⟩ => ⟨S1100000x64, .f32⟩
  | .hbm, ⟨108, _⟩ => ⟨S_, .f32⟩
  | .hbm, ⟨109, _⟩ => ⟨S100000x64, .f32⟩
  | .hbm, ⟨110, _⟩ => ⟨S1100000x1, .i32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its RESULT array named. The program is twelve segments: host operations, then six
  pallas_calls with host operations between them. The buffer contents at the end of the last segment are the fold
  `Gen.W12` of the segments over the launch memory; every weakly fair execution terminates with each unscoped buffer at
  that fold's contents, so in particular the result buffer `main_v79` holds `W12 … main_v79`, and the eight arguments
  hold what they were launched with. What `W12 … main_v79` is, as a function of the arguments, is read segment by
  segment in the sibling modules.
-/
import proofs.«155238_j79259326480547_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.KernelDots.lean ====
/-
  The three matrix-product bodies read at an index. Each body loads a block of rows and the whole weight matrix, rounds
  both to bf16 — at the ideal instance a change of format is the identity — and multiplies them into a zero
  accumulator. So the stored block at row `p`, column `q` is the plain sum over the contracted axis of the row's
  entries times the column's: the contraction index, which the dimension numbers describe as an index of a
  rank-one shape, is re-indexed by its one coordinate.
-/
import proofs.«155238_j79259326480547_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

theorem dA_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dA_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem dA_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem dA_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The first layer's contraction: a sum over the 128 input features. -/
theorem dA_sum (l : S4000x128.Idx → EReal) (r : S128x128.Idx → EReal) (p : Fin 4000) (q : Fin 128) :
    ∑ k : dot_S4000x128_S128x128_S4000x128_1_0_0_1_n_n.contr.Idx, l (dot_S4000x128_S128x128_S4000x128_1_0_0_1_n_n.lhsIdx (ix2 p q) k) * r (dot_S4000x128_S128x128_S4000x128_1_0_0_1_n_n.rhsIdx (ix2 p q) k)
      = ∑ k : Fin 128, l (ix2 p k) * r (ix2 k q) := by
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact dA_l0 _ _
    | ⟨1, _⟩ => exact (dA_l1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (dA_r0 _ _).trans hk
    | ⟨1, _⟩ => exact dA_r1 _ _)
  rw [el, er]

theorem dB_l0 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem dB_l1 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem dB_r0 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem dB_r1 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The second layer's contraction: a sum over the 128 hidden features. -/
theorem dB_sum (l : S4000x128.Idx → EReal) (r : S128x64.Idx → EReal) (p : Fin 4000) (q : Fin 64) :
    ∑ k : dot_S4000x128_S128x64_S4000x64_1_0_0_1_n_n.contr.Idx, l (dot_S4000x128_S128x64_S4000x64_1_0_0_1_n_n.lhsIdx (ix2 p q) k) * r (dot_S4000x128_S128x64_S4000x64_1_0_0_1_n_n.rhsIdx (ix2 p q) k)
      = ∑ k : Fin 128, l (ix2 p k) * r (ix2 k q) := by
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact dB_l0 _ _
    | ⟨1, _⟩ => exact (dB_l1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (dB_r0 _ _).trans hk
    | ⟨1, _⟩ => exact dB_r1 _ _)
  rw [el, er]

theorem dC_l0 (i : S4000x64.Idx) (q : dot_S4000x64_S64x64_S4000x64_1_0_0_1_n_n.contr.Idx) : (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem dC_l1 (i : S4000x64.Idx) (q : dot_S4000x64_S64x64_S4000x64_1_0_0_1_n_n.contr.Idx) : (dot_S4000x64_S64x64_S4000x64_1_0_0_1_n_n.lhsIdx i q 1).val = (q ⟨0, by decide⟩).val :=
  dot_S4000x64_S64x64_S4000x64_1_0_0_1_n_n.lhsIdx_val_of_single rfl i q
theorem dC_r0 (i : S4000x64.Idx) (q : dot_S4000x64_S64x64_S4000x64_1_0_0_1_n_n.contr.Idx) : (dot_S4000x64_S64x64_S4000x64_1_0_0_1_n_n.rhsIdx i q 0).val = (q ⟨0, by decide⟩).val :=
  dot_S4000x64_S64x64_S4000x64_1_0_0_1_n_n.rhsIdx_val_of_single rfl i q
theorem dC_r1 (i : S4000x64.Idx) (q : dot_S4000x64_S64x64_S4000x64_1_0_0_1_n_n.contr.Idx) : (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The third layer's contraction: a sum over the 64 hidden features. -/
theorem dC_sum (l : S4000x64.Idx → EReal) (r : S64x64.Idx → EReal) (p : Fin 4000) (q : Fin 64) :
    ∑ k : dot_S4000x64_S64x64_S4000x64_1_0_0_1_n_n.contr.Idx, l (dot_S4000x64_S64x64_S4000x64_1_0_0_1_n_n.lhsIdx (ix2 p q) k) * r (dot_S4000x64_S64x64_S4000x64_1_0_0_1_n_n.rhsIdx (ix2 p q) k)
      = ∑ k : Fin 64, l (ix2 p k) * r (ix2 k q) := by
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun a => Fin.ext (by
    match a with
    | ⟨0, _⟩ => exact dC_l0 _ _
    | ⟨1, _⟩ => exact (dC_l1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun a => Fin.ext (by
    match a with
    | ⟨0, _⟩ => exact (dC_r0 _ _).trans hk
    | ⟨1, _⟩ => exact dC_r1 _ _)
  rw [el, er]

/-- The first layer's body: entry (p, q) of the stored block is row p of the loaded rows against column q of the weights. -/
theorem lin0_apply (x : Vec Ideal S4000x128 .f32) (w : Vec Ideal S128x128 .f32) (p : Fin 4000) (q : Fin 128) :
    k0_pay1 x w (ix2 p q) = ∑ k : Fin 128, x (ix2 p k) * w (ix2 k q) := by
  unfold k0_pay1
  refine (Ideal.matmul_constant_zero_apply dot_S4000x128_S128x128_S4000x128_1_0_0_1_n_n none _ _ (ix2 p q)).trans ?_
  exact dA_sum x w p q

/-- The second layer's body (its loaded rows first pass through a cast between equal shapes). -/
theorem lin2_apply (x : Vec Ideal S4000x128 .f32) (w : Vec Ideal S128x64 .f32) (p : Fin 4000) (q : Fin 64) :
    k2_pay1 x w (ix2 p q) = ∑ k : Fin 128, x (ix2 p k) * w (ix2 k q) := by
  unfold k2_pay1
  refine (Ideal.matmul_constant_zero_apply dot_S4000x128_S128x64_S4000x64_1_0_0_1_n_n none _ _ (ix2 p q)).trans ?_
  rw [shapeCast_self]
  exact dB_sum x w p q

/-- The third layer's body. -/
theorem lin4_apply (x : Vec Ideal S4000x64 .f32) (w : Vec Ideal S64x64 .f32) (p : Fin 4000) (q : Fin 64) :
    k4_pay1 x w (ix2 p q) = ∑ k : Fin 64, x (ix2 p k) * w (ix2 k q) := by
  unfold k4_pay1
  refine (Ideal.matmul_constant_zero_apply dot_S4000x64_S64x64_S4000x64_1_0_0_1_n_n none _ _ (ix2 p q)).trans ?_
  rw [shapeCast_self]
  exact dC_sum x w p q

end Cert.KernelIdeal.Body

end
-- ==== Proof.Spec.lean ====
/-
  The three whole-array functions the network's dense stages compute, index by index, on the extended reals.
  `matProd x w` is the matrix product: entry (p, q) is the sum over k of x (p, k) · w (k, q). `biasRelu a b` adds the
  bias row to every row of `a` and clamps at the float zero from below; `biasAdd a b` only adds the row. The kernel
  computes each of them block by block over a grid of row blocks, the reference in one host operation; both are
  shown equal to these.
-/
import Idealize.ShloMosaic.Lib.ValueIdx
import Idealize.ShloMosaic.PureOps.Ideal

noncomputable section

open scoped BigOperators

namespace Cert.Gcn

open Idealize.ShloMosaic Idealize.ShloMosaic.ValueIdx

/-- An a × b array of extended reals. -/
abbrev Arr (a b : Nat) := FVec Ideal (⟨2, ![a, b]⟩ : Shape) .f32

variable {M K N : Nat}

/-- The matrix product: entry (p, q) is the sum over the shared axis of x (p, k) · w (k, q). -/
def matProd (x : Arr M K) (w : Arr K N) : Arr M N :=
  fun i => ∑ k : Fin K, x (ix2 (⟨(i 0).val, idx2_lt0 i⟩ : Fin M) k) * w (ix2 k (⟨(i 1).val, idx2_lt1 i⟩ : Fin N))

theorem matProd_apply (x : Arr M K) (w : Arr K N) (p : Fin M) (q : Fin N) :
    matProd x w (ix2 p q) = ∑ k : Fin K, x (ix2 p k) * w (ix2 k q) := rfl

/-- The bias row added to every row, then the maximum with the float zero. -/
def biasRelu (a : Arr M N) (b : Arr 1 N) : Arr M N :=
  fun i => max (a i + b (ix2 (0 : Fin 1) (⟨(i 1).val, idx2_lt1 i⟩ : Fin N))) (Ideal.ofBits .f32 0x00000000#32)

theorem biasRelu_apply (a : Arr M N) (b : Arr 1 N) (p : Fin M) (q : Fin N) :
    biasRelu a b (ix2 p q) = max (a (ix2 p q) + b (ix2 (0 : Fin 1) q)) (Ideal.ofBits .f32 0x00000000#32) := rfl

/-- The bias row added to every row. -/
def biasAdd (a : Arr M N) (b : Arr 1 N) : Arr M N :=
  fun i => a i + b (ix2 (0 : Fin 1) (⟨(i 1).val, idx2_lt1 i⟩ : Fin N))

theorem biasAdd_apply (a : Arr M N) (b : Arr 1 N) (p : Fin M) (q : Fin N) :
    biasAdd a b (ix2 p q) = a (ix2 p q) + b (ix2 (0 : Fin 1) q) := rfl

end Cert.Gcn

end
-- ==== Proof.Lin0.lean ====
/-
  The first layer's linear stage: pallas_call 0 leaves in its result array the product of the node features with the first weight matrix.
  The grid has 25 points; point t stages rows 4000·t … 4000·t + 3999 of the left array and the whole right array, and
  writes back rows 4000·t … 4000·t + 3999 of the result. The body's stored block, entry by entry, is the sum over the
  shared axis of a row entry times a column entry; a staged row entry is the array's entry 4000·t rows further down,
  and the right array is staged whole. So every point writes back its block of ONE function of the two arrays as the
  pallas_call finds them — the matrix product —, and the 25 blocks tile the result, which therefore ends holding it.
-/
import proofs.«155238_j79259326480547_1_alg».proof.Proof.Gen.KernelIdeal.Frame
import proofs.«155238_j79259326480547_1_alg».proof.Proof.KernelDots
import proofs.«155238_j79259326480547_1_alg».proof.Proof.Spec
import Idealize.ShloMosaic.Lib.Pipeline.Value

noncomputable section

open scoped BigOperators

namespace Cert.KernelIdeal.Lin0

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The product of the two arrays the pallas_call finds. -/
abbrev prod (c : Dev nD) : S100000x128.Idx → EReal :=
  matProd (M := 100000) (K := 128) (N := 128) (V c main_arg0) (V c main_arg2)

/-- The printed index maps over the grid: the row windows sit at block row t, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 25 := lt_of_lt_of_eq t.isLt N_0

/-- A staged row entry is the left array's entry 4000·t rows further down. -/
theorem rows_apply (c : Dev nD) (t : Fin cfg0.N) (p : Fin 4000) (k : Fin 128) :
    (iblk0 V c 0 t : Vec Ideal S4000x128 .f32) (ix2 p k)
      = (V c main_arg0 : S100000x128.Idx → EReal) (ix2 (⟨t.val * 4000 + p.val, by have := t_lt t; have := p.isLt; omega⟩ : Fin 100000) k) := by
  obtain ⟨e0, e1, -, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The right array is staged whole. -/
theorem weights_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -, -⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the product. -/
theorem flushed_eq (c : Dev nD) (t : Fin cfg0.N) :
    (dat0 V c).flushed 2 t = ((cfg0.win 2).blk t).view.read (Elt Ideal) (prod V c) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S4000x128) hz, View.ld_unit_zero (S := S128x128) hz]
  funext j
  obtain ⟨p, q, rfl⟩ : ∃ (p : Fin 4000) (q : Fin 128), j = ix2 p q := ⟨j 0, j 1, eq_ix2 j⟩
  show k0_pay1 (iblk0 V c 0 t) (iblk0 V c 1 t) (ix2 p q) = prod V c (((cfg0.win 2).blk t).view.emb (ix2 p q))
  refine (Body.lin0_apply _ _ p q).trans ?_
  have hemb : ((cfg0.win 2).blk t).view.emb (ix2 p q)
      = ix2 (⟨t.val * 4000 + p.val, by have := t_lt t; have := p.isLt; omega⟩ : Fin 100000) q :=
    funext fun a => Fin.ext (by
      match a with
      | ⟨0, _⟩ => show win0_2.index t (0 : Fin 2) * 4000 + 1 * p.val = t.val * 4000 + p.val; rw [e4]; omega
      | ⟨1, _⟩ => show win0_2.index t (1 : Fin 2) * 128 + 1 * q.val = q.val; rw [e5]; omega)
  rw [hemb]
  refine (Finset.sum_congr rfl fun k _ => ?_).trans (matProd_apply _ _ _ q).symm
  rw [rows_apply V c t p k, weights_apply V c t k q]

/-- An index is in point t's block iff each coordinate is in the block's range. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- The 25 row blocks tile the result: row r is in block r / 4000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 4000, by rw [show cfg0.N = 25 from N_0]; omega⟩
  obtain ⟨-, -, -, -, e4, e5⟩ := idx_facts t
  refine ⟨t, flush0_2 t, ?_⟩
  rw [mem_blk]
  intro a
  have ht : t.val = (i 0).val / 4000 := rfl
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 128 ≤ (i 1).val ∧ (i 1).val < win0_2.index t (1 : Fin 2) * 128 + 128; rw [e5]; omega

/-- After the pallas_call the result array holds the product of the two arrays it was entered with. -/
theorem final (c : Dev nD) : (dat0 V c).arrAt 2 cfg0.N = prod V c :=
  (dat0 V c).arrAt_eq_of_cover 2 (prod V c) (fun t _ => flushed_eq V c t) (cover)

end Cert.KernelIdeal.Lin0

end
-- ==== Proof.KernelBias.lean ====
/-
  The three bias bodies read at an index. Each loads a block of rows of the aggregated features and the bias as a
  one-row array, broadcasts the row over the block's rows and adds; the first two then take the maximum with the float
  zero. The casts between equal shapes that the lowering leaves in are the identity.
-/
import proofs.«155238_j79259326480547_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The first layer's bias body: entry (p, q) is the aggregated entry plus the bias at column q, clamped at zero. -/
theorem bias1_apply (a : Vec Ideal S4000x128 .f32) (b : Vec Ideal S1x128 .f32) (p : Fin 4000) (q : Fin 128) :
    k1_pay1 a b (ix2 p q) = max (a (ix2 p q) + b (ix2 (0 : Fin 1) q)) (Ideal.ofBits .f32 0x00000000#32) := by
  unfold k1_pay1
  show max (shapeCast S4000x128 a shapeCasts_S4000x128_S4000x128 (ix2 p q)
      + broadcastTo S4000x128 (shapeCast S1x128 b shapeCasts_S1x128_S1x128) broadcasts_S1x128_S4000x128 (ix2 p q))
      (Ideal.ofBits .f32 0x00000000#32) = _
  rw [shapeCast_self, shapeCast_self, broadcastTo_1b_ab_apply]

/-- The second layer's bias body. -/
theorem bias3_apply (a : Vec Ideal S4000x64 .f32) (b : Vec Ideal S1x64 .f32) (p : Fin 4000) (q : Fin 64) :
    k3_pay1 a b (ix2 p q) = max (a (ix2 p q) + b (ix2 (0 : Fin 1) q)) (Ideal.ofBits .f32 0x00000000#32) := by
  unfold k3_pay1
  show max (shapeCast S4000x64 a shapeCasts_S4000x64_S4000x64 (ix2 p q)
      + broadcastTo S4000x64 (shapeCast S1x64 b shapeCasts_S1x64_S1x64) broadcasts_S1x64_S4000x64 (ix2 p q))
      (Ideal.ofBits .f32 0x00000000#32) = _
  rw [shapeCast_self, shapeCast_self, broadcastTo_1b_ab_apply]

/-- The last layer's bias body: no clamp. -/
theorem bias5_apply (a : Vec Ideal S4000x64 .f32) (b : Vec Ideal S1x64 .f32) (p : Fin 4000) (q : Fin 64) :
    k5_pay1 a b (ix2 p q) = a (ix2 p q) + b (ix2 (0 : Fin 1) q) := by
  unfold k5_pay1
  show shapeCast S4000x64 a shapeCasts_S4000x64_S4000x64 (ix2 p q)
      + broadcastTo S4000x64 (shapeCast S1x64 b shapeCasts_S1x64_S1x64) broadcasts_S1x64_S4000x64 (ix2 p q) = _
  rw [shapeCast_self, shapeCast_self, broadcastTo_1b_ab_apply]

end Cert.KernelIdeal.Body

end
-- ==== Proof.Bias1.lean ====
/-
  The first layer's epilogue: pallas_call 1 leaves in its result array the aggregated features plus the bias row, clamped at zero.
  The grid has 25 points; point t stages rows 4000·t … 4000·t + 3999 of the aggregated features and the bias as a
  one-row array, whole, and writes back the same rows of the result. Entry (p, q) of the stored block is the staged
  entry plus the bias at column q, clamped at the float zero; a staged entry is the array's entry 4000·t rows further down. So every point
  writes back its block of ONE function of the two arrays as the pallas_call finds them, and the 25 blocks tile the
  result, which therefore ends holding that function.
-/
import proofs.«155238_j79259326480547_1_alg».proof.Proof.Gen.KernelIdeal.Frame
import proofs.«155238_j79259326480547_1_alg».proof.Proof.KernelBias
import proofs.«155238_j79259326480547_1_alg».proof.Proof.Spec
import Idealize.ShloMosaic.Lib.Pipeline.Value

noncomputable section

namespace Cert.KernelIdeal.Bias1

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The bias row added to the aggregated features the pallas_call finds, clamped at zero. -/
abbrev res (c : Dev nD) : S100000x128.Idx → EReal :=
  biasRelu (M := 100000) (N := 128) (V c main_v45) (V c main_v46)

/-- The printed index maps over the grid: the row windows sit at block row t, the bias at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt (t : Fin cfg1.N) : t.val < 25 := lt_of_lt_of_eq t.isLt N_1

/-- A staged entry is the aggregated array's entry 4000·t rows further down. -/
theorem rows_apply (c : Dev nD) (t : Fin cfg1.N) (p : Fin 4000) (q : Fin 128) :
    (iblk1 V c 0 t : Vec Ideal S4000x128 .f32) (ix2 p q)
      = (V c main_v45 : S100000x128.Idx → EReal) (ix2 (⟨t.val * 4000 + p.val, by have := t_lt t; have := p.isLt; omega⟩ : Fin 100000) q) := by
  obtain ⟨e0, e1, -, -, -, -⟩ := idx_facts t
  unfold iblk1
  rw [View.read_apply]
  show V c main_v45 _ = V c main_v45 _
  refine congrArg (V c main_v45) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * q.val = q.val; rw [e1]; omega

/-- The bias row is staged whole. -/
theorem bias_apply (c : Dev nD) (t : Fin cfg1.N) (q : Fin 128) :
    (iblk1 V c 1 t : Vec Ideal S1x128 .f32) (ix2 (0 : Fin 1) q) = (V c main_v46 : S1x128.Idx → EReal) (ix2 (0 : Fin 1) q) := by
  obtain ⟨-, -, e2, e3, -, -⟩ := idx_facts t
  unfold iblk1
  rw [View.read_apply]
  show V c main_v46 _ = V c main_v46 _
  refine congrArg (V c main_v46) (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- What point t writes back is block t of that function. -/
theorem flushed_eq (c : Dev nD) (t : Fin cfg1.N) :
    (dat1 V c).flushed 2 t = ((cfg1.win 2).blk t).view.read (Elt Ideal) (res V c) := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k1_pay1 (iblk1 V c 0 t) (iblk1 V c 1 t) (ix2 p q) = res V c (((cfg1.win 2).blk t).view.emb (ix2 p q))
  refine (Body.bias1_apply _ _ p q).trans ?_
  have hemb : ((cfg1.win 2).blk t).view.emb (ix2 p q)
      = ix2 (⟨t.val * 4000 + p.val, by have := t_lt t; have := p.isLt; omega⟩ : Fin 100000) q :=
    funext fun a => Fin.ext (by
      match a with
      | ⟨0, _⟩ => show win1_2.index t (0 : Fin 2) * 4000 + 1 * p.val = t.val * 4000 + p.val; rw [e4]; omega
      | ⟨1, _⟩ => show win1_2.index t (1 : Fin 2) * 128 + 1 * q.val = q.val; rw [e5]; omega)
  rw [hemb, rows_apply V c t p q, bias_apply V c t q]
  exact (biasRelu_apply _ _ _ q).symm

/-- An index is in point t's block iff each coordinate is in the block's range. -/
theorem mem_blk (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v47).slice (win1_2.rect t)).set ↔ _
  rw [View.set_slice_whole, Rect.mem_set_unit]
  exact Iff.rfl

/-- The 25 row blocks tile the result: row r is in block r / 4000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 4000, by rw [show cfg1.N = 25 from N_1]; omega⟩
  obtain ⟨-, -, -, -, e4, e5⟩ := idx_facts t
  refine ⟨t, flush1_2 t, ?_⟩
  rw [mem_blk]
  intro a
  have ht : t.val = (i 0).val / 4000 := rfl
  match a with
  | ⟨0, _⟩ => show win1_2.index t (0 : Fin 2) * 4000 ≤ (i 0).val ∧ (i 0).val < win1_2.index t (0 : Fin 2) * 4000 + 4000; rw [e4, ht]; omega
  | ⟨1, _⟩ => show win1_2.index t (1 : Fin 2) * 128 ≤ (i 1).val ∧ (i 1).val < win1_2.index t (1 : Fin 2) * 128 + 128; rw [e5]; omega

/-- After the pallas_call the result array holds that function of the two arrays it was entered with. -/
theorem final (c : Dev nD) : (dat1 V c).arrAt 2 cfg1.N = res V c :=
  (dat1 V c).arrAt_eq_of_cover 2 (res V c) (fun t _ => flushed_eq V c t) (cover)

end Cert.KernelIdeal.Bias1

end
-- ==== Proof.Lin2.lean ====
/-
  The second layer's linear stage: pallas_call 2 leaves in its result array the product of the first layer's activations with the second weight matrix.
  The grid has 25 points; point t stages rows 4000·t … 4000·t + 3999 of the left array and the whole right array, and
  writes back rows 4000·t … 4000·t + 3999 of the result. The body's stored block, entry by entry, is the sum over the
  shared axis of a row entry times a column entry; a staged row entry is the array's entry 4000·t rows further down,
  and the right array is staged whole. So every point writes back its block of ONE function of the two arrays as the
  pallas_call finds them — the matrix product —, and the 25 blocks tile the result, which therefore ends holding it.
-/
import proofs.«155238_j79259326480547_1_alg».proof.Proof.Gen.KernelIdeal.Frame
import proofs.«155238_j79259326480547_1_alg».proof.Proof.KernelDots
import proofs.«155238_j79259326480547_1_alg».proof.Proof.Spec
import Idealize.ShloMosaic.Lib.Pipeline.Value

noncomputable section

open scoped BigOperators

namespace Cert.KernelIdeal.Lin2

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The product of the two arrays the pallas_call finds. -/
abbrev prod (c : Dev nD) : S100000x64.Idx → EReal :=
  matProd (M := 100000) (K := 128) (N := 64) (V c main_v47) (V c main_arg4)

/-- The printed index maps over the grid: the row windows sit at block row t, the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 25 := lt_of_lt_of_eq t.isLt N_2

/-- A staged row entry is the left array's entry 4000·t rows further down. -/
theorem rows_apply (c : Dev nD) (t : Fin cfg2.N) (p : Fin 4000) (k : Fin 128) :
    (iblk2 V c 0 t : Vec Ideal S4000x128 .f32) (ix2 p k)
      = (V c main_v47 : S100000x128.Idx → EReal) (ix2 (⟨t.val * 4000 + p.val, by have := t_lt t; have := p.isLt; omega⟩ : Fin 100000) k) := by
  obtain ⟨e0, e1, -, -, -, -⟩ := idx_facts t
  unfold iblk2
  rw [View.read_apply]
  show V c main_v47 _ = V c main_v47 _
  refine congrArg (V c main_v47) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

/-- The right array is staged whole. -/
theorem weights_apply (c : Dev nD) (t : Fin cfg2.N) (k : Fin 128) (q : Fin 64) :
    (iblk2 V c 1 t : Vec Ideal S128x64 .f32) (ix2 k q) = (V c main_arg4 : S128x64.Idx → EReal) (ix2 k q) := by
  obtain ⟨-, -, e2, e3, -, -⟩ := idx_facts t
  unfold iblk2
  rw [View.read_apply]
  show V c main_arg4 _ = V c main_arg4 _
  refine congrArg (V c main_arg4) (funext fun a => Fin.ext ?_)
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- What point t writes back is block t of the product. -/
theorem flushed_eq (c : Dev nD) (t : Fin cfg2.N) :
    (dat2 V c).flushed 2 t = ((cfg2.win 2).blk t).view.read (Elt Ideal) (prod V c) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S4000x128) hz, View.ld_unit_zero (S := S128x64) hz]
  funext j
  obtain ⟨p, q, rfl⟩ : ∃ (p : Fin 4000) (q : Fin 64), j = ix2 p q := ⟨j 0, j 1, eq_ix2 j⟩
  show k2_pay1 (iblk2 V c 0 t) (iblk2 V c 1 t) (ix2 p q) = prod V c (((cfg2.win 2).blk t).view.emb (ix2 p q))
  refine (Body.lin2_apply _ _ p q).trans ?_
  have hemb : ((cfg2.win 2).blk t).view.emb (ix2 p q)
      = ix2 (⟨t.val * 4000 + p.val, by have := t_lt t; have := p.isLt; omega⟩ : Fin 100000) q :=
    funext fun a => Fin.ext (by
      match a with
      | ⟨0, _⟩ => show win2_2.index t (0 : Fin 2) * 4000 + 1 * p.val = t.val * 4000 + p.val; rw [e4]; omega
      | ⟨1, _⟩ => show win2_2.index t (1 : Fin 2) * 64 + 1 * q.val = q.val; rw [e5]; omega)
  rw [hemb]
  refine (Finset.sum_congr rfl fun k _ => ?_).trans (matProd_apply _ _ _ q).symm
  rw [rows_apply V c t p k, weights_apply V c t k q]

/-- An index is in point t's block iff each coordinate is in the block's range. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v48).slice (win2_2.rect t)).set ↔ _
  rw [View.set_slice_whole, Rect.mem_set_unit]
  exact Iff.rfl

/-- The 25 row blocks tile the result: row r is in block r / 4000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 4000, by rw [show cfg2.N = 25 from N_2]; omega⟩
  obtain ⟨-, -, -, -, e4, e5⟩ := idx_facts t
  refine ⟨t, flush2_2 t, ?_⟩
  rw [mem_blk]
  intro a
  have ht : t.val = (i 0).val / 4000 := rfl
  match a with
  | ⟨0, _⟩ => show win2_2.index t (0 : Fin 2) * 4000 ≤ (i 0).val ∧ (i 0).val < win2_2.index t (0 : Fin 2) * 4000 + 4000; rw [e4, ht]; omega
  | ⟨1, _⟩ => show win2_2.index t (1 : Fin 2) * 64 ≤ (i 1).val ∧ (i 1).val < win2_2.index t (1 : Fin 2) * 64 + 64; rw [e5]; omega

/-- After the pallas_call the result array holds the product of the two arrays it was entered with. -/
theorem final (c : Dev nD) : (dat2 V c).arrAt 2 cfg2.N = prod V c :=
  (dat2 V c).arrAt_eq_of_cover 2 (prod V c) (fun t _ => flushed_eq V c t) (cover)

end Cert.KernelIdeal.Lin2

end
-- ==== Proof.Bias3.lean ====
/-
  The second layer's epilogue: pallas_call 3 leaves in its result array the aggregated features plus the bias row, clamped at zero.
  The grid has 25 points; point t stages rows 4000·t … 4000·t + 3999 of the aggregated features and the bias as a
  one-row array, whole, and writes back the same rows of the result. Entry (p, q) of the stored block is the staged
  entry plus the bias at column q, clamped at the float zero; a staged entry is the array's entry 4000·t rows further down. So every point
  writes back its block of ONE function of the two arrays as the pallas_call finds them, and the 25 blocks tile the
  result, which therefore ends holding that function.
-/
import proofs.«155238_j79259326480547_1_alg».proof.Proof.Gen.KernelIdeal.Frame
import proofs.«155238_j79259326480547_1_alg».proof.Proof.KernelBias
import proofs.«155238_j79259326480547_1_alg».proof.Proof.Spec
import Idealize.ShloMosaic.Lib.Pipeline.Value

noncomputable section

namespace Cert.KernelIdeal.Bias3

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The bias row added to the aggregated features the pallas_call finds, clamped at zero. -/
abbrev res (c : Dev nD) : S100000x64.Idx → EReal :=
  biasRelu (M := 100000) (N := 64) (V c main_v61) (V c main_v62)

/-- The printed index maps over the grid: the row windows sit at block row t, the bias at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem t_lt (t : Fin cfg3.N) : t.val < 25 := lt_of_lt_of_eq t.isLt N_3

/-- A staged entry is the aggregated array's entry 4000·t rows further down. -/
theorem rows_apply (c : Dev nD) (t : Fin cfg3.N) (p : Fin 4000) (q : Fin 64) :
    (iblk3 V c 0 t : Vec Ideal S4000x64 .f32) (ix2 p q)
      = (V c main_v61 : S100000x64.Idx → EReal) (ix2 (⟨t.val * 4000 + p.val, by have := t_lt t; have := p.isLt; omega⟩ : Fin 100000) q) := by
  obtain ⟨e0, e1, -, -, -, -⟩ := idx_facts t
  unfold iblk3
  rw [View.read_apply]
  show V c main_v61 _ = V c main_v61 _
  refine congrArg (V c main_v61) (funext fun a => Fin.ext ?_)
  match a with
  | ⟨0, _⟩ => show win3_0.index t (0 : Fin 2) * 4000 + 1 * p.val = t.val * 4000 + p.val; rw [e0]; omega
  | ⟨1, _⟩ => show win3_0.index t (1 : Fin 2) * 64 + 1 * q.val = q.val; rw [e1]; omega

/-- The bias row is staged whole. -/
theorem bias_apply (c : Dev nD) (t : Fin cfg3.N) (q : Fin 64) :
    (iblk3 V c 1 t : Vec Ideal S1x64 .f32) (ix2 (0 : Fin 1) q) = (V c main_v62 : S1x64.Idx → EReal) (ix2 (0 : Fin 1) q) := by
  obtain ⟨-, -, e2, e3, -, -⟩ := idx_facts t
  unfold iblk3
  rw [View.read_apply]
  show V c main_v62 _ = V c main_v62 _
  refine congrArg (V c main_v62) (funext fun a => Fin.ext ?_)
  match a with
  | ⟨0, _⟩ => show win3_1.index t (0 : Fin 2) * 1 + 1 * 0 = 0; rw [e2]
  | ⟨1, _⟩ => show win3_1.index t (1 : Fin 2) * 64 + 1 * q.val = q.val; rw [e3]; omega

/-- What point t writes back is block t of that function. -/
theorem flushed_eq (c : Dev nD) (t : Fin cfg3.N) :
    (dat3 V c).flushed 2 t = ((cfg3.win 2).blk t).view.read (Elt Ideal) (res V c) := by
  obtain ⟨-, -, -, -, e4, e5⟩ := idx_facts t
  show (cfg3.win 2).cut (grid3.coords t) ((dat3 V c).after 2 t) = _
  rw [after3_2]
  unfold out3_2
  rw [View.canon_unit_zero hz]
  simp only [View.ld_unit_zero (S := S4000x64) hz, View.ld_unit_zero (S := S1x64) hz]
  funext j
  obtain ⟨p, q, rfl⟩ : ∃ (p : Fin 4000) (q : Fin 64), j = ix2 p q := ⟨j 0, j 1, eq_ix2 j⟩
  show k3_pay1 (iblk3 V c 0 t) (iblk3 V c 1 t) (ix2 p q) = res V c (((cfg3.win 2).blk t).view.emb (ix2 p q))
  refine (Body.bias3_apply _ _ p q).trans ?_
  have hemb : ((cfg3.win 2).blk t).view.emb (ix2 p q)
      = ix2 (⟨t.val * 4000 + p.val, by have := t_lt t; have := p.isLt; omega⟩ : Fin 100000) q :=
    funext fun a => Fin.ext (by
      match a with
      | ⟨0, _⟩ => show win3_2.index t (0 : Fin 2) * 4000 + 1 * p.val = t.val * 4000 + p.val; rw [e4]; omega
      | ⟨1, _⟩ => show win3_2.index t (1 : Fin 2) * 64 + 1 * q.val = q.val; rw [e5]; omega)
  rw [hemb, rows_apply V c t p q, bias_apply V c t q]
  exact (biasRelu_apply _ _ _ q).symm

/-- An index is in point t's block iff each coordinate is in the block's range. -/
theorem mem_blk (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v63).slice (win3_2.rect t)).set ↔ _
  rw [View.set_slice_whole, Rect.mem_set_unit]
  exact Iff.rfl

/-- The 25 row blocks tile the result: row r is in block r / 4000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 4000, by rw [show cfg3.N = 25 from N_3]; omega⟩
  obtain ⟨-, -, -, -, e4, e5⟩ := idx_facts t
  refine ⟨t, flush3_2 t, ?_⟩
  rw [mem_blk]
  intro a
  have ht : t.val = (i 0).val / 4000 := rfl
  match a with
  | ⟨0, _⟩ => show win3_2.index t (0 : Fin 2) * 4000 ≤ (i 0).val ∧ (i 0).val < win3_2.index t (0 : Fin 2) * 4000 + 4000; rw [e4, ht]; omega
  | ⟨1, _⟩ => show win3_2.index t (1 : Fin 2) * 64 ≤ (i 1).val ∧ (i 1).val < win3_2.index t (1 : Fin 2) * 64 + 64; rw [e5]; omega

/-- After the pallas_call the result array holds that function of the two arrays it was entered with. -/
theorem final (c : Dev nD) : (dat3 V c).arrAt 2 cfg3.N = res V c :=
  (dat3 V c).arrAt_eq_of_cover 2 (res V c) (fun t _ => flushed_eq V c t) (cover)

end Cert.KernelIdeal.Bias3

end
-- ==== Proof.Lin4.lean ====
/-
  The third layer's linear stage: pallas_call 4 leaves in its result array the product of the second layer's activations with the third weight matrix.
  The grid has 25 points; point t stages rows 4000·t … 4000·t + 3999 of the left array and the whole right array, and
  writes back rows 4000·t … 4000·t + 3999 of the result. The body's stored block, entry by entry, is the sum over the
  shared axis of a row entry times a column entry; a staged row entry is the array's entry 4000·t rows further down,
  and the right array is staged whole. So every point writes back its block of ONE function of the two arrays as the
  pallas_call finds them — the matrix product —, and the 25 blocks tile the result, which therefore ends holding it.
-/
import proofs.«155238_j79259326480547_1_alg».proof.Proof.Gen.KernelIdeal.Frame
import proofs.«155238_j79259326480547_1_alg».proof.Proof.KernelDots
import proofs.«155238_j79259326480547_1_alg».proof.Proof.Spec
import Idealize.ShloMosaic.Lib.Pipeline.Value

noncomputable section

open scoped BigOperators

namespace Cert.KernelIdeal.Lin4

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The product of the two arrays the pallas_call finds. -/
abbrev prod (c : Dev nD) : S100000x64.Idx → EReal :=
  matProd (M := 100000) (K := 64) (N := 64) (V c main_v63) (V c main_arg6)

/-- The printed index maps over the grid: the row windows sit at block row t, the weights at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem t_lt (t : Fin cfg4.N) : t.val < 25 := lt_of_lt_of_eq t.isLt N_4

/-- A staged row entry is the left array's entry 4000·t rows further down. -/
theorem rows_apply (c : Dev nD) (t : Fin cfg4.N) (p : Fin 4000) (k : Fin 64) :
    (iblk4 V c 0 t : Vec Ideal S4000x64 .f32) (ix2 p k)
      = (V c main_v63 : S100000x64.Idx → EReal) (ix2 (⟨t.val * 4000 + p.val, by have := t_lt t; have := p.isLt; omega⟩ : Fin 100000) k) := by
  obtain ⟨e0, e1, -, -, -, -⟩ := idx_facts t
  unfold iblk4
  rw [View.read_apply]
  show V c main_v63 _ = V c main_v63 _
  refine congrArg (V c main_v63) (funext fun a => Fin.ext ?_)
  match a with
  | ⟨0, _⟩ => show win4_0.index t (0 : Fin 2) * 4000 + 1 * p.val = t.val * 4000 + p.val; rw [e0]; omega
  | ⟨1, _⟩ => show win4_0.index t (1 : Fin 2) * 64 + 1 * k.val = k.val; rw [e1]; omega

/-- The right array is staged whole. -/
theorem weights_apply (c : Dev nD) (t : Fin cfg4.N) (k : Fin 64) (q : Fin 64) :
    (iblk4 V c 1 t : Vec Ideal S64x64 .f32) (ix2 k q) = (V c main_arg6 : S64x64.Idx → EReal) (ix2 k q) := by
  obtain ⟨-, -, e2, e3, -, -⟩ := idx_facts t
  unfold iblk4
  rw [View.read_apply]
  show V c main_arg6 _ = V c main_arg6 _
  refine congrArg (V c main_arg6) (funext fun a => Fin.ext ?_)
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- What point t writes back is block t of the product. -/
theorem flushed_eq (c : Dev nD) (t : Fin cfg4.N) :
    (dat4 V c).flushed 2 t = ((cfg4.win 2).blk t).view.read (Elt Ideal) (prod V c) := by
  obtain ⟨-, -, -, -, e4, e5⟩ := idx_facts t
  show (cfg4.win 2).cut (grid4.coords t) ((dat4 V c).after 2 t) = _
  rw [after4_2]
  unfold out4_2
  rw [View.canon_unit_zero hz]
  simp only [View.ld_unit_zero (S := S4000x64) hz, View.ld_unit_zero (S := S64x64) hz]
  funext j
  obtain ⟨p, q, rfl⟩ : ∃ (p : Fin 4000) (q : Fin 64), j = ix2 p q := ⟨j 0, j 1, eq_ix2 j⟩
  show k4_pay1 (iblk4 V c 0 t) (iblk4 V c 1 t) (ix2 p q) = prod V c (((cfg4.win 2).blk t).view.emb (ix2 p q))
  refine (Body.lin4_apply _ _ p q).trans ?_
  have hemb : ((cfg4.win 2).blk t).view.emb (ix2 p q)
      = ix2 (⟨t.val * 4000 + p.val, by have := t_lt t; have := p.isLt; omega⟩ : Fin 100000) q :=
    funext fun a => Fin.ext (by
      match a with
      | ⟨0, _⟩ => show win4_2.index t (0 : Fin 2) * 4000 + 1 * p.val = t.val * 4000 + p.val; rw [e4]; omega
      | ⟨1, _⟩ => show win4_2.index t (1 : Fin 2) * 64 + 1 * q.val = q.val; rw [e5]; omega)
  rw [hemb]
  refine (Finset.sum_congr rfl fun k _ => ?_).trans (matProd_apply _ _ _ q).symm
  rw [rows_apply V c t p k, weights_apply V c t k q]

/-- An index is in point t's block iff each coordinate is in the block's range. -/
theorem mem_blk (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v64).slice (win4_2.rect t)).set ↔ _
  rw [View.set_slice_whole, Rect.mem_set_unit]
  exact Iff.rfl

/-- The 25 row blocks tile the result: row r is in block r / 4000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  let t : Fin cfg4.N := ⟨(i 0).val / 4000, by rw [show cfg4.N = 25 from N_4]; omega⟩
  obtain ⟨-, -, -, -, e4, e5⟩ := idx_facts t
  refine ⟨t, flush4_2 t, ?_⟩
  rw [mem_blk]
  intro a
  have ht : t.val = (i 0).val / 4000 := rfl
  match a with
  | ⟨0, _⟩ => show win4_2.index t (0 : Fin 2) * 4000 ≤ (i 0).val ∧ (i 0).val < win4_2.index t (0 : Fin 2) * 4000 + 4000; rw [e4, ht]; omega
  | ⟨1, _⟩ => show win4_2.index t (1 : Fin 2) * 64 ≤ (i 1).val ∧ (i 1).val < win4_2.index t (1 : Fin 2) * 64 + 64; rw [e5]; omega

/-- After the pallas_call the result array holds the product of the two arrays it was entered with. -/
theorem final (c : Dev nD) : (dat4 V c).arrAt 2 cfg4.N = prod V c :=
  (dat4 V c).arrAt_eq_of_cover 2 (prod V c) (fun t _ => flushed_eq V c t) (cover)

end Cert.KernelIdeal.Lin4

end
-- ==== Proof.Bias5.lean ====
/-
  The last layer's epilogue: pallas_call 5 leaves in its result array the aggregated features plus the bias row.
  The grid has 25 points; point t stages rows 4000·t … 4000·t + 3999 of the aggregated features and the bias as a
  one-row array, whole, and writes back the same rows of the result. Entry (p, q) of the stored block is the staged
  entry plus the bias at column q; a staged entry is the array's entry 4000·t rows further down. So every point
  writes back its block of ONE function of the two arrays as the pallas_call finds them, and the 25 blocks tile the
  result, which therefore ends holding that function.
-/
import proofs.«155238_j79259326480547_1_alg».proof.Proof.Gen.KernelIdeal.Frame
import proofs.«155238_j79259326480547_1_alg».proof.Proof.KernelBias
import proofs.«155238_j79259326480547_1_alg».proof.Proof.Spec
import Idealize.ShloMosaic.Lib.Pipeline.Value

noncomputable section

namespace Cert.KernelIdeal.Bias5

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The bias row added to the aggregated features the pallas_call finds. -/
abbrev res (c : Dev nD) : S100000x64.Idx → EReal :=
  biasAdd (M := 100000) (N := 64) (V c main_v77) (V c main_v78)

/-- The printed index maps over the grid: the row windows sit at block row t, the bias at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem t_lt (t : Fin cfg5.N) : t.val < 25 := lt_of_lt_of_eq t.isLt N_5

/-- A staged entry is the aggregated array's entry 4000·t rows further down. -/
theorem rows_apply (c : Dev nD) (t : Fin cfg5.N) (p : Fin 4000) (q : Fin 64) :
    (iblk5 V c 0 t : Vec Ideal S4000x64 .f32) (ix2 p q)
      = (V c main_v77 : S100000x64.Idx → EReal) (ix2 (⟨t.val * 4000 + p.val, by have := t_lt t; have := p.isLt; omega⟩ : Fin 100000) q) := by
  obtain ⟨e0, e1, -, -, -, -⟩ := idx_facts t
  unfold iblk5
  rw [View.read_apply]
  show V c main_v77 _ = V c main_v77 _
  refine congrArg (V c main_v77) (funext fun a => Fin.ext ?_)
  match a with
  | ⟨0, _⟩ => show win5_0.index t (0 : Fin 2) * 4000 + 1 * p.val = t.val * 4000 + p.val; rw [e0]; omega
  | ⟨1, _⟩ => show win5_0.index t (1 : Fin 2) * 64 + 1 * q.val = q.val; rw [e1]; omega

/-- The bias row is staged whole. -/
theorem bias_apply (c : Dev nD) (t : Fin cfg5.N) (q : Fin 64) :
    (iblk5 V c 1 t : Vec Ideal S1x64 .f32) (ix2 (0 : Fin 1) q) = (V c main_v78 : S1x64.Idx → EReal) (ix2 (0 : Fin 1) q) := by
  obtain ⟨-, -, e2, e3, -, -⟩ := idx_facts t
  unfold iblk5
  rw [View.read_apply]
  show V c main_v78 _ = V c main_v78 _
  refine congrArg (V c main_v78) (funext fun a => Fin.ext ?_)
  match a with
  | ⟨0, _⟩ => show win5_1.index t (0 : Fin 2) * 1 + 1 * 0 = 0; rw [e2]
  | ⟨1, _⟩ => show win5_1.index t (1 : Fin 2) * 64 + 1 * q.val = q.val; rw [e3]; omega

/-- What point t writes back is block t of that function. -/
theorem flushed_eq (c : Dev nD) (t : Fin cfg5.N) :
    (dat5 V c).flushed 2 t = ((cfg5.win 2).blk t).view.read (Elt Ideal) (res V c) := by
  obtain ⟨-, -, -, -, e4, e5⟩ := idx_facts t
  show (cfg5.win 2).cut (grid5.coords t) ((dat5 V c).after 2 t) = _
  rw [after5_2]
  unfold out5_2
  rw [View.canon_unit_zero hz]
  simp only [View.ld_unit_zero (S := S4000x64) hz, View.ld_unit_zero (S := S1x64) hz]
  funext j
  obtain ⟨p, q, rfl⟩ : ∃ (p : Fin 4000) (q : Fin 64), j = ix2 p q := ⟨j 0, j 1, eq_ix2 j⟩
  show k5_pay1 (iblk5 V c 0 t) (iblk5 V c 1 t) (ix2 p q) = res V c (((cfg5.win 2).blk t).view.emb (ix2 p q))
  refine (Body.bias5_apply _ _ p q).trans ?_
  have hemb : ((cfg5.win 2).blk t).view.emb (ix2 p q)
      = ix2 (⟨t.val * 4000 + p.val, by have := t_lt t; have := p.isLt; omega⟩ : Fin 100000) q :=
    funext fun a => Fin.ext (by
      match a with
      | ⟨0, _⟩ => show win5_2.index t (0 : Fin 2) * 4000 + 1 * p.val = t.val * 4000 + p.val; rw [e4]; omega
      | ⟨1, _⟩ => show win5_2.index t (1 : Fin 2) * 64 + 1 * q.val = q.val; rw [e5]; omega)
  rw [hemb, rows_apply V c t p q, bias_apply V c t q]
  exact (biasAdd_apply _ _ _ q).symm

/-- An index is in point t's block iff each coordinate is in the block's range. -/
theorem mem_blk (t : Fin cfg5.N) (i : S100000x64.Idx) :
    i ∈ ((cfg5.win 2).blk t).view.set ↔ ∀ a : Fin 2, win5_2.index t a * S4000x64.size a ≤ (i a).val ∧ (i a).val < win5_2.index t a * S4000x64.size a + S4000x64.size a := by
  show i ∈ ((View.whole main_v79).slice (win5_2.rect t)).set ↔ _
  rw [View.set_slice_whole, Rect.mem_set_unit]
  exact Iff.rfl

/-- The 25 row blocks tile the result: row r is in block r / 4000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  let t : Fin cfg5.N := ⟨(i 0).val / 4000, by rw [show cfg5.N = 25 from N_5]; omega⟩
  obtain ⟨-, -, -, -, e4, e5⟩ := idx_facts t
  refine ⟨t, flush5_2 t, ?_⟩
  rw [mem_blk]
  intro a
  have ht : t.val = (i 0).val / 4000 := rfl
  match a with
  | ⟨0, _⟩ => show win5_2.index t (0 : Fin 2) * 4000 ≤ (i 0).val ∧ (i 0).val < win5_2.index t (0 : Fin 2) * 4000 + 4000; rw [e4, ht]; omega
  | ⟨1, _⟩ => show win5_2.index t (1 : Fin 2) * 64 ≤ (i 1).val ∧ (i 1).val < win5_2.index t (1 : Fin 2) * 64 + 64; rw [e5]; omega

/-- After the pallas_call the result array holds that function of the two arrays it was entered with. -/
theorem final (c : Dev nD) : (dat5 V c).arrAt 2 cfg5.N = res V c :=
  (dat5 V c).arrAt_eq_of_cover 2 (res V c) (fun t _ => flushed_eq V c t) (cover)

end Cert.KernelIdeal.Bias5

end
-- ==== Proof.Stretches.lean ====
/-
  The host operations of the kernel's program between its pallas_calls, read at the buffers the next pallas_call
  or a later stretch reads, for ANY buffer contents `X` at the stretch's entry. Each of the three stretches between
  the layers is the same normalized aggregation: gather the rows of the linear stage's result at the (wrapped) source
  indices, scale each row by its edge's normalization coefficient, and scatter-add the rows at the destination
  indices into zeros; then the layer's bias is reshaped to a one-row array. Every other buffer read later keeps what
  it held. The first stretch computes the source and destination index vectors and the edge normalization from the
  edge list; that computation is never opened here: it is carried as the stage functions of the reference, which
  performs the same operations.
-/
import proofs.«155238_j79259326480547_1_alg».proof.Proof.Gen.KernelIdeal.Launch
import proofs.«155238_j79259326480547_1_alg».proof.Proof.ReadP
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

/-- An index below zero is moved up by the node count (numpy's indexing from the end); any other is kept. -/
def wrapIdx (s : (⟨S1100000, .i32⟩ : BufTy).Contents (Elt Ideal)) : (⟨S1100000, .i32⟩ : BufTy).Contents (Elt Ideal) :=
  select (cmpi .slt s (broadcastInDim S1100000 ![] bcast_S_S1100000 (constantI S_ 32 0#32)))
    (addi s (broadcastInDim S1100000 ![] bcast_S_S1100000 (constantI S_ 32 100000#32))) s

/-- The normalized aggregation of 128-wide rows: the rows of `h` at the source indices, each scaled by its edge's
    coefficient, added up at the destination indices. -/
def agg128 (s d : (⟨S1100000, .i32⟩ : BufTy).Contents (Elt Ideal)) (n : (⟨S1100000, .f32⟩ : BufTy).Contents (Elt Ideal))
    (h : (⟨S100000x128, .f32⟩ : BufTy).Contents (Elt Ideal)) : (⟨S100000x128, .f32⟩ : BufTy).Contents (Elt Ideal) :=
  Host.scatterAdd (F := Ideal) scatter_S100000x128_S1100000x1_S1100000x128_1_0_0_1
    (broadcastInDim S100000x128 ![] bcast_S_S100000x128 (constant (F := Ideal) S_ .f32 0x00000000#32))
    (broadcastInDim S1100000x1 ![0] bcast_S1100000_S1100000x1_0 d)
    (mulf (Host.gather gather_S100000x128_S1100000x1_S1100000x128_1_0_n_n_0_1_1128 h
        (broadcastInDim S1100000x1 ![0] bcast_S1100000_S1100000x1_0 (wrapIdx s)))
      (broadcastInDim S1100000x128 ![0, 1] bcast_S1100000x1_S1100000x128_0_1
        (broadcastInDim S1100000x1 ![0] bcast_S1100000_S1100000x1_0 n)))

/-- The same aggregation of 64-wide rows. -/
def agg64 (s d : (⟨S1100000, .i32⟩ : BufTy).Contents (Elt Ideal)) (n : (⟨S1100000, .f32⟩ : BufTy).Contents (Elt Ideal))
    (h : (⟨S100000x64, .f32⟩ : BufTy).Contents (Elt Ideal)) : (⟨S100000x64, .f32⟩ : BufTy).Contents (Elt Ideal) :=
  Host.scatterAdd (F := Ideal) scatter_S100000x64_S1100000x1_S1100000x64_1_0_0_1
    (broadcastInDim S100000x64 ![] bcast_S_S100000x64 (constant (F := Ideal) S_ .f32 0x00000000#32))
    (broadcastInDim S1100000x1 ![0] bcast_S1100000_S1100000x1_0 d)
    (mulf (Host.gather gather_S100000x64_S1100000x1_S1100000x64_1_0_n_n_0_1_164 h
        (broadcastInDim S1100000x1 ![0] bcast_S1100000_S1100000x1_0 (wrapIdx s)))
      (broadcastInDim S1100000x64 ![0, 1] bcast_S1100000x1_S1100000x64_0_1
        (broadcastInDim S1100000x1 ![0] bcast_S1100000_S1100000x1_0 n)))

/-! ## Before the first pallas_call: the index vectors and the edge normalization -/

/-- The source index vector is the reference's, of the edge list. -/
theorem first_src (X : Valuation τ sig (Elt Ideal)) :
    StableHlo.after (hostOps0_2 (F := Ideal)) (StableHlo.after (hostOps0_1 (F := Ideal)) (StableHlo.after (hostOps0 (F := Ideal)) X)) (Proc.devRef .tc main_v3)
      = Cert.ReferenceIdeal.ReadP.val_main_v3 (F := Ideal) (X (Proc.devRef .tc main_arg1)) := by
  after_results
  rfl

/-- The destination index vector is the reference's. -/
theorem first_dst (X : Valuation τ sig (Elt Ideal)) :
    StableHlo.after (hostOps0_2 (F := Ideal)) (StableHlo.after (hostOps0_1 (F := Ideal)) (StableHlo.after (hostOps0 (F := Ideal)) X)) (Proc.devRef .tc main_v6)
      = Cert.ReferenceIdeal.ReadP.val_main_v6 (F := Ideal) (X (Proc.devRef .tc main_arg1)) := by
  after_results
  rfl

/-- The outlined `where` is a plain select: its typed-reference wrappers are transports along equations between a
    buffer's type and the value's type that hold by computation, so they are the identity. -/
theorem where_cast (A : main_v12.ty.Contents (Elt Ideal)) (B : main_v14.ty.Contents (Elt Ideal)) (C : main_v15.ty.Contents (Elt Ideal)) :
    (TRef.of (T := ⟨S100000, .f32⟩) main_v16).toBuf (Val := Elt Ideal)
      (select ((TRef.of (T := ⟨S100000, .i1⟩) main_v12).ofBuf A) ((TRef.of (T := ⟨S100000, .f32⟩) main_v14).ofBuf B) ((TRef.of (T := ⟨S100000, .f32⟩) main_v15).ofBuf C))
      = (select (show (⟨S100000, .i1⟩ : BufTy).Contents (Elt Ideal) from A) (show (⟨S100000, .f32⟩ : BufTy).Contents (Elt Ideal) from B) (show (⟨S100000, .f32⟩ : BufTy).Contents (Elt Ideal) from C) : (⟨S100000, .f32⟩ : BufTy).Contents (Elt Ideal)) := rfl

set_option maxHeartbeats 40000000 in
/-- The edge normalization is the reference's: the same operations over the same index vectors. (The buffers between
    the operations are read back one operation at a time; the transports of the outlined select are removed first.) -/
theorem first_norm (X : Valuation τ sig (Elt Ideal)) :
    StableHlo.after (hostOps0_2 (F := Ideal)) (StableHlo.after (hostOps0_1 (F := Ideal)) (StableHlo.after (hostOps0 (F := Ideal)) X)) (Proc.devRef .tc main_v31)
      = Cert.ReferenceIdeal.ReadP.val_main_v31 (F := Ideal) (X (Proc.devRef .tc main_arg1)) := by
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [where_cast]
  rfl

theorem first_keep_arg0 (X : Valuation τ sig (Elt Ideal)) :
    StableHlo.after (hostOps0_2 (F := Ideal)) (StableHlo.after (hostOps0_1 (F := Ideal)) (StableHlo.after (hostOps0 (F := Ideal)) X)) (Proc.devRef .tc main_arg0) = X (Proc.devRef .tc main_arg0) := by
  after_results

theorem first_keep_arg2 (X : Valuation τ sig (Elt Ideal)) :
    StableHlo.after (hostOps0_2 (F := Ideal)) (StableHlo.after (hostOps0_1 (F := Ideal)) (StableHlo.after (hostOps0 (F := Ideal)) X)) (Proc.devRef .tc main_arg2) = X (Proc.devRef .tc main_arg2) := by
  after_results

theorem first_keep_arg3 (X : Valuation τ sig (Elt Ideal)) :
    StableHlo.after (hostOps0_2 (F := Ideal)) (StableHlo.after (hostOps0_1 (F := Ideal)) (StableHlo.after (hostOps0 (F := Ideal)) X)) (Proc.devRef .tc main_arg3) = X (Proc.devRef .tc main_arg3) := by
  after_results

theorem first_keep_arg4 (X : Valuation τ sig (Elt Ideal)) :
    StableHlo.after (hostOps0_2 (F := Ideal)) (StableHlo.after (hostOps0_1 (F := Ideal)) (StableHlo.after (hostOps0 (F := Ideal)) X)) (Proc.devRef .tc main_arg4) = X (Proc.devRef .tc main_arg4) := by
  after_results

theorem first_keep_arg5 (X : Valuation τ sig (Elt Ideal)) :
    StableHlo.after (hostOps0_2 (F := Ideal)) (StableHlo.after (hostOps0_1 (F := Ideal)) (StableHlo.after (hostOps0 (F := Ideal)) X)) (Proc.devRef .tc main_arg5) = X (Proc.devRef .tc main_arg5) := by
  after_results

theorem first_keep_arg6 (X : Valuation τ sig (Elt Ideal)) :
    StableHlo.after (hostOps0_2 (F := Ideal)) (StableHlo.after (hostOps0_1 (F := Ideal)) (StableHlo.after (hostOps0 (F := Ideal)) X)) (Proc.devRef .tc main_arg6) = X (Proc.devRef .tc main_arg6) := by
  after_results

theorem first_keep_arg7 (X : Valuation τ sig (Elt Ideal)) :
    StableHlo.after (hostOps0_2 (F := Ideal)) (StableHlo.after (hostOps0_1 (F := Ideal)) (StableHlo.after (hostOps0 (F := Ideal)) X)) (Proc.devRef .tc main_arg7) = X (Proc.devRef .tc main_arg7) := by
  after_results

/-! ## Between pallas_calls 0 and 1 -/

set_option maxHeartbeats 8000000 in
theorem agg1 (X : Valuation τ sig (Elt Ideal)) :
    StableHlo.after (hostOps1 (F := Ideal)) X (Proc.devRef .tc main_v45)
      = agg128 (X (Proc.devRef .tc main_v3)) (X (Proc.devRef .tc main_v6)) (X (Proc.devRef .tc main_v31)) (X (Proc.devRef .tc main_v32)) := by
  after_results_simp <;> rfl

theorem bias1 (X : Valuation τ sig (Elt Ideal)) :
    StableHlo.after (hostOps1 (F := Ideal)) X (Proc.devRef .tc main_v46)
      = shapeCast S1x128 (X (Proc.devRef .tc main_arg3)) shapeCasts_S128_S1x128 := by
  after_results
  rfl

theorem keep1_arg4 (X : Valuation τ sig (Elt Ideal)) :
    StableHlo.after (hostOps1 (F := Ideal)) X (Proc.devRef .tc main_arg4) = X (Proc.devRef .tc main_arg4) := by
  after_results

theorem keep1_arg5 (X : Valuation τ sig (Elt Ideal)) :
    StableHlo.after (hostOps1 (F := Ideal)) X (Proc.devRef .tc main_arg5) = X (Proc.devRef .tc main_arg5) := by
  after_results

theorem keep1_arg6 (X : Valuation τ sig (Elt Ideal)) :
    StableHlo.after (hostOps1 (F := Ideal)) X (Proc.devRef .tc main_arg6) = X (Proc.devRef .tc main_arg6) := by
  after_results

theorem keep1_arg7 (X : Valuation τ sig (Elt Ideal)) :
    StableHlo.after (hostOps1 (F := Ideal)) X (Proc.devRef .tc main_arg7) = X (Proc.devRef .tc main_arg7) := by
  after_results

theorem keep1_v3 (X : Valuation τ sig (Elt Ideal)) :
    StableHlo.after (hostOps1 (F := Ideal)) X (Proc.devRef .tc main_v3) = X (Proc.devRef .tc main_v3) := by
  after_results

theorem keep1_v6 (X : Valuation τ sig (Elt Ideal)) :
    StableHlo.after (hostOps1 (F := Ideal)) X (Proc.devRef .tc main_v6) = X (Proc.devRef .tc main_v6) := by
  after_results

theorem keep1_v31 (X : Valuation τ sig (Elt Ideal)) :
    StableHlo.after (hostOps1 (F := Ideal)) X (Proc.devRef .tc main_v31) = X (Proc.devRef .tc main_v31) := by
  after_results

/-! ## Between pallas_calls 2 and 3 -/

set_option maxHeartbeats 8000000 in
theorem agg3 (X : Valuation τ sig (Elt Ideal)) :
    StableHlo.after (hostOps3 (F := Ideal)) X (Proc.devRef .tc main_v61)
      = agg64 (X (Proc.devRef .tc main_v3)) (X (Proc.devRef .tc main_v6)) (X (Proc.devRef .tc main_v31)) (X (Proc.devRef .tc main_v48)) := by
  after_results_simp <;> rfl

theorem bias3 (X : Valuation τ sig (Elt Ideal)) :
    StableHlo.after (hostOps3 (F := Ideal)) X (Proc.devRef .tc main_v62)
      = shapeCast S1x64 (X (Proc.devRef .tc main_arg5)) shapeCasts_S64_S1x64 := by
  after_results
  rfl

theorem keep3_arg6 (X : Valuation τ sig (Elt Ideal)) :
    StableHlo.after (hostOps3 (F := Ideal)) X (Proc.devRef .tc main_arg6) = X (Proc.devRef .tc main_arg6) := by
  after_results

theorem keep3_arg7 (X : Valuation τ sig (Elt Ideal)) :
    StableHlo.after (hostOps3 (F := Ideal)) X (Proc.devRef .tc main_arg7) = X (Proc.devRef .tc main_arg7) := by
  after_results

theorem keep3_v3 (X : Valuation τ sig (Elt Ideal)) :
    StableHlo.after (hostOps3 (F := Ideal)) X (Proc.devRef .tc main_v3) = X (Proc.devRef .tc main_v3) := by
  after_results

theorem keep3_v6 (X : Valuation τ sig (Elt Ideal)) :
    StableHlo.after (hostOps3 (F := Ideal)) X (Proc.devRef .tc main_v6) = X (Proc.devRef .tc main_v6) := by
  after_results

theorem keep3_v31 (X : Valuation τ sig (Elt Ideal)) :
    StableHlo.after (hostOps3 (F := Ideal)) X (Proc.devRef .tc main_v31) = X (Proc.devRef .tc main_v31) := by
  after_results

/-! ## Between pallas_calls 4 and 5 -/

set_option maxHeartbeats 8000000 in
theorem agg5 (X : Valuation τ sig (Elt Ideal)) :
    StableHlo.after (hostOps5 (F := Ideal)) X (Proc.devRef .tc main_v77)
      = agg64 (X (Proc.devRef .tc main_v3)) (X (Proc.devRef .tc main_v6)) (X (Proc.devRef .tc main_v31)) (X (Proc.devRef .tc main_v64)) := by
  after_results_simp <;> rfl

theorem bias5 (X : Valuation τ sig (Elt Ideal)) :
    StableHlo.after (hostOps5 (F := Ideal)) X (Proc.devRef .tc main_v78)
      = shapeCast S1x64 (X (Proc.devRef .tc main_arg7)) shapeCasts_S64_S1x64 := by
  after_results
  rfl

end Cert.KernelIdeal.Host

end
-- ==== Proof.RefDots.lean ====
/-
  The reference's three matrix products read at an index: at the ideal instance the host's `dot_general` with one
  contracted axis is, at row `p` and column `q`, the plain sum over that axis of the left operand's row entries times
  the right operand's column entries — the same sum the kernel's bodies compute block by block.
-/
import proofs.«155238_j79259326480547_1_alg».proof.Proof.Gen.ReferenceIdeal
import Idealize.ShloMosaic.Lib.ValueIdx
import Idealize.ShloMosaic.Lib.Pipeline.Value
import Idealize.ShloMosaic.PureOps.Ideal.Laws

noncomputable section

open scoped BigOperators

namespace Cert.ReferenceIdeal.Dots

open Cert.ReferenceIdeal Cert.ReferenceIdeal.Gen Idealize.ShloMosaic Idealize.ShloMosaic.ValueIdx

theorem dA_l0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dA_l1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem dA_r0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem dA_r1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The first layer's contraction: a sum over the 128 input features. -/
theorem dA_sum (l : S100000x128.Idx → EReal) (r : S128x128.Idx → EReal) (p : Fin 100000) (q : Fin 128) :
    ∑ k : dot_S100000x128_S128x128_S100000x128_1_0_0_1_n_n.contr.Idx, l (dot_S100000x128_S128x128_S100000x128_1_0_0_1_n_n.lhsIdx (ix2 p q) k) * r (dot_S100000x128_S128x128_S100000x128_1_0_0_1_n_n.rhsIdx (ix2 p q) k)
      = ∑ k : Fin 128, l (ix2 p k) * r (ix2 k q) := by
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact dA_l0 _ _
    | ⟨1, _⟩ => exact (dA_l1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (dA_r0 _ _).trans hk
    | ⟨1, _⟩ => exact dA_r1 _ _)
  rw [el, er]

theorem dB_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dB_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem dB_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem dB_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The second layer's contraction: a sum over the 128 hidden features. -/
theorem dB_sum (l : S100000x128.Idx → EReal) (r : S128x64.Idx → EReal) (p : Fin 100000) (q : Fin 64) :
    ∑ k : dot_S100000x128_S128x64_S100000x64_1_0_0_1_n_n.contr.Idx, l (dot_S100000x128_S128x64_S100000x64_1_0_0_1_n_n.lhsIdx (ix2 p q) k) * r (dot_S100000x128_S128x64_S100000x64_1_0_0_1_n_n.rhsIdx (ix2 p q) k)
      = ∑ k : Fin 128, l (ix2 p k) * r (ix2 k q) := by
  rw [← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact dB_l0 _ _
    | ⟨1, _⟩ => exact (dB_l1 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (dB_r0 _ _).trans hk
    | ⟨1, _⟩ => exact dB_r1 _ _)
  rw [el, er]

theorem dC_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dC_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem dC_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem dC_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The third layer's contraction: a sum over the 64 hidden features. -/
theorem dC_sum (l : S100000x64.Idx → EReal) (r : S64x64.Idx → EReal) (p : Fin 100000) (q : Fin 64) :
    ∑ k : dot_S100000x64_S64x64_S100000x64_1_0_0_1_n_n.contr.Idx, l (dot_S100000x64_S64x64_S100000x64_1_0_0_1_n_n.lhsIdx (ix2 p q) k) * r (dot_S100000x64_S64x64_S100000x64_1_0_0_1_n_n.rhsIdx (ix2 p q) k)
      = ∑ k : Fin 64, l (ix2 p k) * r (ix2 k q) := by
  rw [← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k := funext fun a => Fin.ext (by
    match a with
    | ⟨0, _⟩ => exact dC_l0 _ _
    | ⟨1, _⟩ => exact (dC_l1 _ _).trans hk)
  have er : dot_S100000x64_S64x64_S100000x64_1_0_0_1_n_n.rhsIdx (ix2 p q) ((contrEquiv1 dot_S100000x64_S64x64_S100000x64_1_0_0_1_n_n 64 rfl rfl).symm k) = ix2 k q := funext fun a => Fin.ext (by
    match a with
    | ⟨0, _⟩ => exact (dC_r0 _ _).trans hk
    | ⟨1, _⟩ => exact dC_r1 _ _)
  rw [el, er]

/-- The first layer's product of the node features with the weights, entry by entry. -/
theorem dotA_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [Ideal.dotGeneral_apply]
  exact dA_sum l r p q

/-- The second layer's product, entry by entry. -/
theorem dotB_apply (l : FVec Ideal S100000x128 .f32) (r : FVec Ideal S128x64 .f32) (p : Fin 100000) (q : Fin 64) :
    Host.dotGeneral (F := Ideal) dot_S100000x128_S128x64_S100000x64_1_0_0_1_n_n none l r (ix2 p q)
      = ∑ k : Fin 128, l (ix2 p k) * r (ix2 k q) := by
  simp only [Host.dotGeneral]
  rw [Ideal.dotGeneral_apply]
  exact dB_sum l r p q

/-- The third layer's product, entry by entry. -/
theorem dotC_apply (l : FVec Ideal S100000x64 .f32) (r : FVec Ideal S64x64 .f32) (p : Fin 100000) (q : Fin 64) :
    Host.dotGeneral (F := Ideal) dot_S100000x64_S64x64_S100000x64_1_0_0_1_n_n none l r (ix2 p q)
      = ∑ k : Fin 64, l (ix2 p k) * r (ix2 k q) := by
  simp only [Host.dotGeneral]
  rw [Ideal.dotGeneral_apply]
  exact dC_sum l r p q

end Cert.ReferenceIdeal.Dots

end
-- ==== Proof.Bridge.lean ====
/-
  The two sides meet here. The reference's stages (its generated stage functions `val_main_vN`, one per host
  operation) against what the kernel's program leaves at the corresponding buffers:
  * a linear stage — the matrix product, entry (p, q) the sum over k of a (p, k) · w (k, q) — is the reference's
    `dot_general`, which at the ideal instance is that same sum;
  * an epilogue — the bias, reshaped to one row and added to every row, then (in the first two layers) the maximum
    with the float zero — is the reference's two broadcasts of the bias, its add and its `maximum` against the
    broadcast zero: at entry (p, q) both read the bias at q;
  * the aggregation between them is the same host operations on both sides, so it is never opened: the kernel
    program's is the reference's by unfolding the two programs' (identical) dimension records.
  No law of the extended reals beyond these identities is used, and none that needs finiteness.
-/
import proofs.«155238_j79259326480547_1_alg».proof.Proof.Spec
import proofs.«155238_j79259326480547_1_alg».proof.Proof.RefDots
import proofs.«155238_j79259326480547_1_alg».proof.Proof.ReadP
import proofs.«155238_j79259326480547_1_alg».proof.Proof.Stretches
import Idealize.ShloMosaic.Lib.ValueIdx
import Idealize.ShloMosaic.Lib.ValueLayout

noncomputable section

open scoped BigOperators

namespace Cert.Gcn.Bridge

open Cert.ReferenceIdeal Cert.ReferenceIdeal.Gen Cert.ReferenceIdeal.ReadP
open Idealize.ShloMosaic Idealize.ShloMosaic.ValueIdx
open Cert.Gcn

/-! ## The linear stages -/

theorem lin1 (x0 : FVec Ideal S100000x128 .f32) (x2 : FVec Ideal S128x128 .f32) :
    matProd (M := 100000) (K := 128) (N := 128) x0 x2 = val_main_v32 (F := Ideal) x0 x2 := by
  funext i
  obtain ⟨p, q, rfl⟩ : ∃ (p : Fin 100000) (q : Fin 128), i = ix2 p q := ⟨i 0, i 1, eq_ix2 i⟩
  rw [matProd_apply]
  unfold val_main_v32
  exact (Dots.dotA_apply x0 x2 p q).symm

theorem lin2 (a : FVec Ideal S100000x128 .f32) (x4 : FVec Ideal S128x64 .f32) :
    matProd (M := 100000) (K := 128) (N := 64) a x4
      = Host.dotGeneral (F := Ideal) dot_S100000x128_S128x64_S100000x64_1_0_0_1_n_n none a x4 := by
  funext i
  obtain ⟨p, q, rfl⟩ : ∃ (p : Fin 100000) (q : Fin 64), i = ix2 p q := ⟨i 0, i 1, eq_ix2 i⟩
  rw [matProd_apply]
  exact (Dots.dotB_apply a x4 p q).symm

theorem lin3 (a : FVec Ideal S100000x64 .f32) (x6 : FVec Ideal S64x64 .f32) :
    matProd (M := 100000) (K := 64) (N := 64) a x6
      = Host.dotGeneral (F := Ideal) dot_S100000x64_S64x64_S100000x64_1_0_0_1_n_n none a x6 := by
  funext i
  obtain ⟨p, q, rfl⟩ : ∃ (p : Fin 100000) (q : Fin 64), i = ix2 p q := ⟨i 0, i 1, eq_ix2 i⟩
  rw [matProd_apply]
  exact (Dots.dotC_apply a x6 p q).symm

/-! ## The epilogues -/

theorem relu1 (a : FVec Ideal S100000x128 .f32) (x3 : FVec Ideal S128 .f32) (h : S128.ShapeCasts S1x128) :
    biasRelu (M := 100000) (N := 128) a (shapeCast S1x128 x3 h)
      = maximumf (addf a (val_main_v47 (F := Ideal) x3)) (val_main_call1_v0 (F := Ideal)) := by
  funext i
  obtain ⟨p, q, rfl⟩ : ∃ (p : Fin 100000) (q : Fin 128), i = ix2 p q := ⟨i 0, i 1, eq_ix2 i⟩
  rw [biasRelu_apply, shapeCast_a_1a_apply]
  show _ = max (a (ix2 p q) + val_main_v47 (F := Ideal) x3 (ix2 p q)) (val_main_call1_v0 (F := Ideal) (ix2 p q))
  rw [val_main_v47_apply, val_main_v46_apply, val_main_call1_v0_apply, val_main_call1_cst_apply]
  have e : idx_main_v46 (idx_main_v47 (ix2 p q)) = ix1 q := funext fun d => by match d with | ⟨0, _⟩ => rfl
  rw [e]
  rfl

theorem relu2 (a : FVec Ideal S100000x64 .f32) (x5 : FVec Ideal S64 .f32) (h : S64.ShapeCasts S1x64) :
    biasRelu (M := 100000) (N := 64) a (shapeCast S1x64 x5 h)
      = maximumf (addf a (val_main_v65 (F := Ideal) x5)) (val_main_call2_v0 (F := Ideal)) := by
  funext i
  obtain ⟨p, q, rfl⟩ : ∃ (p : Fin 100000) (q : Fin 64), i = ix2 p q := ⟨i 0, i 1, eq_ix2 i⟩
  rw [biasRelu_apply, shapeCast_a_1a_apply]
  show _ = max (a (ix2 p q) + val_main_v65 (F := Ideal) x5 (ix2 p q)) (val_main_call2_v0 (F := Ideal) (ix2 p q))
  rw [val_main_v65_apply, val_main_v64_apply, val_main_call2_v0_apply, val_main_call2_cst_apply]
  have e : idx_main_v64 (idx_main_v65 (ix2 p q)) = ix1 q := funext fun d => by match d with | ⟨0, _⟩ => rfl
  rw [e]
  rfl

theorem add3 (a : FVec Ideal S100000x64 .f32) (x7 : FVec Ideal S64 .f32) (h : S64.ShapeCasts S1x64) :
    biasAdd (M := 100000) (N := 64) a (shapeCast S1x64 x7 h) = addf a (val_main_v83 (F := Ideal) x7) := by
  funext i
  obtain ⟨p, q, rfl⟩ : ∃ (p : Fin 100000) (q : Fin 64), i = ix2 p q := ⟨i 0, i 1, eq_ix2 i⟩
  rw [biasAdd_apply, shapeCast_a_1a_apply]
  show _ = a (ix2 p q) + val_main_v83 (F := Ideal) x7 (ix2 p q)
  rw [val_main_v83_apply, val_main_v82_apply]
  have e : idx_main_v82 (idx_main_v83 (ix2 p q)) = ix1 q := funext fun d => by match d with | ⟨0, _⟩ => rfl
  rw [e]

/-! ## The aggregations: the same host operations on both sides -/

theorem aggr1 (x1 : IVec S2x1000000 32) (hh : FVec Ideal S100000x128 .f32) :
    Cert.KernelIdeal.Host.agg128 (val_main_v3 (F := Ideal) x1) (val_main_v6 (F := Ideal) x1) (val_main_v31 (F := Ideal) x1) hh
      = Host.scatterAdd (F := Ideal) scatter_S100000x128_S1100000x1_S1100000x128_1_0_0_1 (val_main_v43 (F := Ideal)) (val_main_v44 (F := Ideal) x1)
          (mulf (Host.gather gather_S100000x128_S1100000x1_S1100000x128_1_0_n_n_0_1_1128 hh (val_main_v38 (F := Ideal) x1)) (val_main_v41 (F := Ideal) x1)) := rfl

theorem aggr2 (x1 : IVec S2x1000000 32) (hh : FVec Ideal S100000x64 .f32) :
    Cert.KernelIdeal.Host.agg64 (val_main_v3 (F := Ideal) x1) (val_main_v6 (F := Ideal) x1) (val_main_v31 (F := Ideal) x1) hh
      = Host.scatterAdd (F := Ideal) scatter_S100000x64_S1100000x1_S1100000x64_1_0_0_1 (val_main_v61 (F := Ideal)) (val_main_v62 (F := Ideal) x1)
          (mulf (Host.gather gather_S100000x64_S1100000x1_S1100000x64_1_0_n_n_0_1_164 hh (val_main_v56 (F := Ideal) x1)) (val_main_v59 (F := Ideal) x1)) := rfl

theorem aggr3 (x1 : IVec S2x1000000 32) (hh : FVec Ideal S100000x64 .f32) :
    Cert.KernelIdeal.Host.agg64 (val_main_v3 (F := Ideal) x1) (val_main_v6 (F := Ideal) x1) (val_main_v31 (F := Ideal) x1) hh
      = Host.scatterAdd (F := Ideal) scatter_S100000x64_S1100000x1_S1100000x64_1_0_0_1 (val_main_v79 (F := Ideal)) (val_main_v80 (F := Ideal) x1)
          (mulf (Host.gather gather_S100000x64_S1100000x1_S1100000x64_1_0_n_n_0_1_164 hh (val_main_v74 (F := Ideal) x1)) (val_main_v77 (F := Ideal) x1)) := rfl

end Cert.Gcn.Bridge

end
-- ==== Proof.KernelValue.lean ====
/-
  What the kernel's program leaves in its result buffer, as a function of the arguments. The buffer contents at the
  twelve segment boundaries are the fold `W0 … W12`; read boundary by boundary, every buffer that a later segment
  reads holds the reference's stage function of the arguments at the corresponding operation:
  the index vectors and the edge normalization after the first stretch; after each pallas_call of a linear stage the
  matrix product, which is the reference's `dot_general`; after each aggregation stretch the reference's
  scatter-add; after each epilogue the reference's add (and maximum). A buffer that a segment does not write keeps
  its contents: a pallas_call writes only its result array, a stretch only its own operations' results. At the last
  boundary the result buffer holds the reference's final stage of the eight arguments.
-/
import proofs.«155238_j79259326480547_1_alg».proof.Proof.Gen.KernelIdeal.Frame
import proofs.«155238_j79259326480547_1_alg».proof.Proof.Lin0
import proofs.«155238_j79259326480547_1_alg».proof.Proof.Bias1
import proofs.«155238_j79259326480547_1_alg».proof.Proof.Lin2
import proofs.«155238_j79259326480547_1_alg».proof.Proof.Bias3
import proofs.«155238_j79259326480547_1_alg».proof.Proof.Lin4
import proofs.«155238_j79259326480547_1_alg».proof.Proof.Bias5
import proofs.«155238_j79259326480547_1_alg».proof.Proof.Stretches
import proofs.«155238_j79259326480547_1_alg».proof.Proof.Bridge

noncomputable section

namespace Cert.KernelIdeal.Result

open Cert.KernelIdeal Cert.KernelIdeal.Gen Idealize.ShloMosaic Idealize.ShloMosaic.TcCoe Idealize.SL.Sem
open Cert.Gcn

variable (m : (ℓ : Loc nD τ sig) → Buf (Elt Ideal) ℓ) (ρ : Dev nD → PrngReg) (c : Dev nD)

/-! ## Region 0's entry: the arguments as launched, the index vectors and the edge normalization -/

theorem b3_arg0 : W3 m ρ c (Proc.devRef .tc main_arg0) = m ((c : Thread nD τ).loc main_arg0) := Host.first_keep_arg0 (W0 m ρ c)
theorem b3_arg2 : W3 m ρ c (Proc.devRef .tc main_arg2) = m ((c : Thread nD τ).loc main_arg2) := Host.first_keep_arg2 (W0 m ρ c)
theorem b3_arg3 : W3 m ρ c (Proc.devRef .tc main_arg3) = m ((c : Thread nD τ).loc main_arg3) := Host.first_keep_arg3 (W0 m ρ c)
theorem b3_arg4 : W3 m ρ c (Proc.devRef .tc main_arg4) = m ((c : Thread nD τ).loc main_arg4) := Host.first_keep_arg4 (W0 m ρ c)
theorem b3_arg5 : W3 m ρ c (Proc.devRef .tc main_arg5) = m ((c : Thread nD τ).loc main_arg5) := Host.first_keep_arg5 (W0 m ρ c)
theorem b3_arg6 : W3 m ρ c (Proc.devRef .tc main_arg6) = m ((c : Thread nD τ).loc main_arg6) := Host.first_keep_arg6 (W0 m ρ c)
theorem b3_arg7 : W3 m ρ c (Proc.devRef .tc main_arg7) = m ((c : Thread nD τ).loc main_arg7) := Host.first_keep_arg7 (W0 m ρ c)
theorem b3_v3 : W3 m ρ c (Proc.devRef .tc main_v3) = Cert.ReferenceIdeal.ReadP.val_main_v3 (F := Ideal) (m ((c : Thread nD τ).loc main_arg1)) := Host.first_src (W0 m ρ c)
theorem b3_v6 : W3 m ρ c (Proc.devRef .tc main_v6) = Cert.ReferenceIdeal.ReadP.val_main_v6 (F := Ideal) (m ((c : Thread nD τ).loc main_arg1)) := Host.first_dst (W0 m ρ c)
theorem b3_v31 : W3 m ρ c (Proc.devRef .tc main_v31) = Cert.ReferenceIdeal.ReadP.val_main_v31 (F := Ideal) (m ((c : Thread nD τ).loc main_arg1)) := Host.first_norm (W0 m ρ c)

/-! ## After pallas_call 0: the first linear stage -/

theorem b4_v32 : W4 m ρ c (Proc.devRef .tc main_v32) = Cert.ReferenceIdeal.ReadP.val_main_v32 (F := Ideal) (m ((c : Thread nD τ).loc main_arg0)) (m ((c : Thread nD τ).loc main_arg2)) :=
  (W4_arr m ρ c 2).trans ((Lin0.final (V3 m ρ) c).trans (by
    show matProd (M := 100000) (K := 128) (N := 128) (W3 m ρ c (Proc.devRef .tc main_arg0)) (W3 m ρ c (Proc.devRef .tc main_arg2)) = _
    rw [b3_arg0 m ρ c, b3_arg2 m ρ c]
    exact Bridge.lin1 _ _))
theorem b4_arg3 : W4 m ρ c (Proc.devRef .tc main_arg3) = m ((c : Thread nD τ).loc main_arg3) := (W4_of_ne m ρ c main_arg3 (by decide)).trans (b3_arg3 m ρ c)
theorem b4_arg4 : W4 m ρ c (Proc.devRef .tc main_arg4) = m ((c : Thread nD τ).loc main_arg4) := (W4_of_ne m ρ c main_arg4 (by decide)).trans (b3_arg4 m ρ c)
theorem b4_arg5 : W4 m ρ c (Proc.devRef .tc main_arg5) = m ((c : Thread nD τ).loc main_arg5) := (W4_of_ne m ρ c main_arg5 (by decide)).trans (b3_arg5 m ρ c)
theorem b4_arg6 : W4 m ρ c (Proc.devRef .tc main_arg6) = m ((c : Thread nD τ).loc main_arg6) := (W4_of_ne m ρ c main_arg6 (by decide)).trans (b3_arg6 m ρ c)
theorem b4_arg7 : W4 m ρ c (Proc.devRef .tc main_arg7) = m ((c : Thread nD τ).loc main_arg7) := (W4_of_ne m ρ c main_arg7 (by decide)).trans (b3_arg7 m ρ c)
theorem b4_v3 : W4 m ρ c (Proc.devRef .tc main_v3) = Cert.ReferenceIdeal.ReadP.val_main_v3 (F := Ideal) (m ((c : Thread nD τ).loc main_arg1)) := (W4_of_ne m ρ c main_v3 (by decide)).trans (b3_v3 m ρ c)
theorem b4_v6 : W4 m ρ c (Proc.devRef .tc main_v6) = Cert.ReferenceIdeal.ReadP.val_main_v6 (F := Ideal) (m ((c : Thread nD τ).loc main_arg1)) := (W4_of_ne m ρ c main_v6 (by decide)).trans (b3_v6 m ρ c)
theorem b4_v31 : W4 m ρ c (Proc.devRef .tc main_v31) = Cert.ReferenceIdeal.ReadP.val_main_v31 (F := Ideal) (m ((c : Thread nD τ).loc main_arg1)) := (W4_of_ne m ρ c main_v31 (by decide)).trans (b3_v31 m ρ c)

/-! ## After the first aggregation stretch -/

theorem b5_v45 : W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) :=
  (Host.agg1 (W4 m ρ c)).trans (by
    rw [b4_v3 m ρ c, b4_v6 m ρ c, b4_v31 m ρ c, b4_v32 m ρ c]
    exact (Bridge.aggr1 _ _).trans rfl)
theorem b5_v46 : W5 m ρ c (Proc.devRef .tc main_v46) = shapeCast S1x128 (m ((c : Thread nD τ).loc main_arg3)) shapeCasts_S128_S1x128 :=
  (Host.bias1 (W4 m ρ c)).trans (by rw [b4_arg3 m ρ c])
theorem b5_arg4 : W5 m ρ c (Proc.devRef .tc main_arg4) = m ((c : Thread nD τ).loc main_arg4) := (Host.keep1_arg4 (W4 m ρ c)).trans (b4_arg4 m ρ c)
theorem b5_arg5 : W5 m ρ c (Proc.devRef .tc main_arg5) = m ((c : Thread nD τ).loc main_arg5) := (Host.keep1_arg5 (W4 m ρ c)).trans (b4_arg5 m ρ c)
theorem b5_arg6 : W5 m ρ c (Proc.devRef .tc main_arg6) = m ((c : Thread nD τ).loc main_arg6) := (Host.keep1_arg6 (W4 m ρ c)).trans (b4_arg6 m ρ c)
theorem b5_arg7 : W5 m ρ c (Proc.devRef .tc main_arg7) = m ((c : Thread nD τ).loc main_arg7) := (Host.keep1_arg7 (W4 m ρ c)).trans (b4_arg7 m ρ c)
theorem b5_v3 : W5 m ρ c (Proc.devRef .tc main_v3) = Cert.ReferenceIdeal.ReadP.val_main_v3 (F := Ideal) (m ((c : Thread nD τ).loc main_arg1)) := (Host.keep1_v3 (W4 m ρ c)).trans (b4_v3 m ρ c)
theorem b5_v6 : W5 m ρ c (Proc.devRef .tc main_v6) = Cert.ReferenceIdeal.ReadP.val_main_v6 (F := Ideal) (m ((c : Thread nD τ).loc main_arg1)) := (Host.keep1_v6 (W4 m ρ c)).trans (b4_v6 m ρ c)
theorem b5_v31 : W5 m ρ c (Proc.devRef .tc main_v31) = Cert.ReferenceIdeal.ReadP.val_main_v31 (F := Ideal) (m ((c : Thread nD τ).loc main_arg1)) := (Host.keep1_v31 (W4 m ρ c)).trans (b4_v31 m ρ c)

/-! ## After pallas_call 1: the first epilogue -/

theorem b6_v47 : W6 m ρ c (Proc.devRef .tc main_v47) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) :=
  (W6_arr m ρ c 2).trans ((Bias1.final (V5 m ρ) c).trans (by
    show biasRelu (M := 100000) (N := 128) (W5 m ρ c (Proc.devRef .tc main_v45)) (W5 m ρ c (Proc.devRef .tc main_v46)) = _
    rw [b5_v45 m ρ c, b5_v46 m ρ c]
    exact (Bridge.relu1 _ _ _).trans rfl))
theorem b6_arg4 : W6 m ρ c (Proc.devRef .tc main_arg4) = m ((c : Thread nD τ).loc main_arg4) := (W6_of_ne m ρ c main_arg4 (by decide)).trans (b5_arg4 m ρ c)
theorem b6_arg5 : W6 m ρ c (Proc.devRef .tc main_arg5) = m ((c : Thread nD τ).loc main_arg5) := (W6_of_ne m ρ c main_arg5 (by decide)).trans (b5_arg5 m ρ c)
theorem b6_arg6 : W6 m ρ c (Proc.devRef .tc main_arg6) = m ((c : Thread nD τ).loc main_arg6) := (W6_of_ne m ρ c main_arg6 (by decide)).trans (b5_arg6 m ρ c)
theorem b6_arg7 : W6 m ρ c (Proc.devRef .tc main_arg7) = m ((c : Thread nD τ).loc main_arg7) := (W6_of_ne m ρ c main_arg7 (by decide)).trans (b5_arg7 m ρ c)
theorem b6_v3 : W6 m ρ c (Proc.devRef .tc main_v3) = Cert.ReferenceIdeal.ReadP.val_main_v3 (F := Ideal) (m ((c : Thread nD τ).loc main_arg1)) := (W6_of_ne m ρ c main_v3 (by decide)).trans (b5_v3 m ρ c)
theorem b6_v6 : W6 m ρ c (Proc.devRef .tc main_v6) = Cert.ReferenceIdeal.ReadP.val_main_v6 (F := Ideal) (m ((c : Thread nD τ).loc main_arg1)) := (W6_of_ne m ρ c main_v6 (by decide)).trans (b5_v6 m ρ c)
theorem b6_v31 : W6 m ρ c (Proc.devRef .tc main_v31) = Cert.ReferenceIdeal.ReadP.val_main_v31 (F := Ideal) (m ((c : Thread nD τ).loc main_arg1)) := (W6_of_ne m ρ c main_v31 (by decide)).trans (b5_v31 m ρ c)

/-! ## After pallas_call 2: the second linear stage -/

theorem b7_v48 : W7 m ρ c (Proc.devRef .tc main_v48) = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Lin2.final (V6 m ρ) c).trans (by
    show matProd (M := 100000) (K := 128) (N := 64) (W6 m ρ c (Proc.devRef .tc main_v47)) (W6 m ρ c (Proc.devRef .tc main_arg4)) = _
    rw [b6_v47 m ρ c, b6_arg4 m ρ c]
    exact (Bridge.lin2 _ _).trans rfl))
theorem b7_arg5 : W7 m ρ c (Proc.devRef .tc main_arg5) = m ((c : Thread nD τ).loc main_arg5) := (W7_of_ne m ρ c main_arg5 (by decide)).trans (b6_arg5 m ρ c)
theorem b7_arg6 : W7 m ρ c (Proc.devRef .tc main_arg6) = m ((c : Thread nD τ).loc main_arg6) := (W7_of_ne m ρ c main_arg6 (by decide)).trans (b6_arg6 m ρ c)
theorem b7_arg7 : W7 m ρ c (Proc.devRef .tc main_arg7) = m ((c : Thread nD τ).loc main_arg7) := (W7_of_ne m ρ c main_arg7 (by decide)).trans (b6_arg7 m ρ c)
theorem b7_v3 : W7 m ρ c (Proc.devRef .tc main_v3) = Cert.ReferenceIdeal.ReadP.val_main_v3 (F := Ideal) (m ((c : Thread nD τ).loc main_arg1)) := (W7_of_ne m ρ c main_v3 (by decide)).trans (b6_v3 m ρ c)
theorem b7_v6 : W7 m ρ c (Proc.devRef .tc main_v6) = Cert.ReferenceIdeal.ReadP.val_main_v6 (F := Ideal) (m ((c : Thread nD τ).loc main_arg1)) := (W7_of_ne m ρ c main_v6 (by decide)).trans (b6_v6 m ρ c)
theorem b7_v31 : W7 m ρ c (Proc.devRef .tc main_v31) = Cert.ReferenceIdeal.ReadP.val_main_v31 (F := Ideal) (m ((c : Thread nD τ).loc main_arg1)) := (W7_of_ne m ρ c main_v31 (by decide)).trans (b6_v31 m ρ c)

/-! ## After the second aggregation stretch -/

theorem b8_v61 : W8 m ρ c (Proc.devRef .tc main_v61) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (Host.agg3 (W7 m ρ c)).trans (by
    rw [b7_v3 m ρ c, b7_v6 m ρ c, b7_v31 m ρ c, b7_v48 m ρ c]
    exact (Bridge.aggr2 _ _).trans rfl)
theorem b8_v62 : W8 m ρ c (Proc.devRef .tc main_v62) = shapeCast S1x64 (m ((c : Thread nD τ).loc main_arg5)) shapeCasts_S64_S1x64 :=
  (Host.bias3 (W7 m ρ c)).trans (by rw [b7_arg5 m ρ c])
theorem b8_arg6 : W8 m ρ c (Proc.devRef .tc main_arg6) = m ((c : Thread nD τ).loc main_arg6) := (Host.keep3_arg6 (W7 m ρ c)).trans (b7_arg6 m ρ c)
theorem b8_arg7 : W8 m ρ c (Proc.devRef .tc main_arg7) = m ((c : Thread nD τ).loc main_arg7) := (Host.keep3_arg7 (W7 m ρ c)).trans (b7_arg7 m ρ c)
theorem b8_v3 : W8 m ρ c (Proc.devRef .tc main_v3) = Cert.ReferenceIdeal.ReadP.val_main_v3 (F := Ideal) (m ((c : Thread nD τ).loc main_arg1)) := (Host.keep3_v3 (W7 m ρ c)).trans (b7_v3 m ρ c)
theorem b8_v6 : W8 m ρ c (Proc.devRef .tc main_v6) = Cert.ReferenceIdeal.ReadP.val_main_v6 (F := Ideal) (m ((c : Thread nD τ).loc main_arg1)) := (Host.keep3_v6 (W7 m ρ c)).trans (b7_v6 m ρ c)
theorem b8_v31 : W8 m ρ c (Proc.devRef .tc main_v31) = Cert.ReferenceIdeal.ReadP.val_main_v31 (F := Ideal) (m ((c : Thread nD τ).loc main_arg1)) := (Host.keep3_v31 (W7 m ρ c)).trans (b7_v31 m ρ c)

/-! ## After pallas_call 3: the second epilogue -/

theorem b9_v63 : W9 m ρ c (Proc.devRef .tc main_v63) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Bias3.final (V8 m ρ) c).trans (by
    show biasRelu (M := 100000) (N := 64) (W8 m ρ c (Proc.devRef .tc main_v61)) (W8 m ρ c (Proc.devRef .tc main_v62)) = _
    rw [b8_v61 m ρ c, b8_v62 m ρ c]
    exact (Bridge.relu2 _ _ _).trans rfl))
theorem b9_arg6 : W9 m ρ c (Proc.devRef .tc main_arg6) = m ((c : Thread nD τ).loc main_arg6) := (W9_of_ne m ρ c main_arg6 (by decide)).trans (b8_arg6 m ρ c)
theorem b9_arg7 : W9 m ρ c (Proc.devRef .tc main_arg7) = m ((c : Thread nD τ).loc main_arg7) := (W9_of_ne m ρ c main_arg7 (by decide)).trans (b8_arg7 m ρ c)
theorem b9_v3 : W9 m ρ c (Proc.devRef .tc main_v3) = Cert.ReferenceIdeal.ReadP.val_main_v3 (F := Ideal) (m ((c : Thread nD τ).loc main_arg1)) := (W9_of_ne m ρ c main_v3 (by decide)).trans (b8_v3 m ρ c)
theorem b9_v6 : W9 m ρ c (Proc.devRef .tc main_v6) = Cert.ReferenceIdeal.ReadP.val_main_v6 (F := Ideal) (m ((c : Thread nD τ).loc main_arg1)) := (W9_of_ne m ρ c main_v6 (by decide)).trans (b8_v6 m ρ c)
theorem b9_v31 : W9 m ρ c (Proc.devRef .tc main_v31) = Cert.ReferenceIdeal.ReadP.val_main_v31 (F := Ideal) (m ((c : Thread nD τ).loc main_arg1)) := (W9_of_ne m ρ c main_v31 (by decide)).trans (b8_v31 m ρ c)

/-! ## After pallas_call 4: the third linear stage -/

theorem b10_v64 : W10 m ρ c (Proc.devRef .tc main_v64) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans ((Lin4.final (V9 m ρ) c).trans (by
    show matProd (M := 100000) (K := 64) (N := 64) (W9 m ρ c (Proc.devRef .tc main_v63)) (W9 m ρ c (Proc.devRef .tc main_arg6)) = _
    rw [b9_v63 m ρ c, b9_arg6 m ρ c]
    exact (Bridge.lin3 _ _).trans rfl))
theorem b10_arg7 : W10 m ρ c (Proc.devRef .tc main_arg7) = m ((c : Thread nD τ).loc main_arg7) := (W10_of_ne m ρ c main_arg7 (by decide)).trans (b9_arg7 m ρ c)
theorem b10_v3 : W10 m ρ c (Proc.devRef .tc main_v3) = Cert.ReferenceIdeal.ReadP.val_main_v3 (F := Ideal) (m ((c : Thread nD τ).loc main_arg1)) := (W10_of_ne m ρ c main_v3 (by decide)).trans (b9_v3 m ρ c)
theorem b10_v6 : W10 m ρ c (Proc.devRef .tc main_v6) = Cert.ReferenceIdeal.ReadP.val_main_v6 (F := Ideal) (m ((c : Thread nD τ).loc main_arg1)) := (W10_of_ne m ρ c main_v6 (by decide)).trans (b9_v6 m ρ c)
theorem b10_v31 : W10 m ρ c (Proc.devRef .tc main_v31) = Cert.ReferenceIdeal.ReadP.val_main_v31 (F := Ideal) (m ((c : Thread nD τ).loc main_arg1)) := (W10_of_ne m ρ c main_v31 (by decide)).trans (b9_v31 m ρ c)

/-! ## After the third aggregation stretch -/

theorem b11_v77 : W11 m ρ c (Proc.devRef .tc main_v77) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Host.agg5 (W10 m ρ c)).trans (by
    rw [b10_v3 m ρ c, b10_v6 m ρ c, b10_v31 m ρ c, b10_v64 m ρ c]
    exact (Bridge.aggr3 _ _).trans rfl)
theorem b11_v78 : W11 m ρ c (Proc.devRef .tc main_v78) = shapeCast S1x64 (m ((c : Thread nD τ).loc main_arg7)) shapeCasts_S64_S1x64 :=
  (Host.bias5 (W10 m ρ c)).trans (by rw [b10_arg7 m ρ c])

/-! ## After pallas_call 5: the result -/

/-- The kernel's result buffer ends holding the reference's last stage of the eight arguments. -/
theorem result : W12 m ρ c (Proc.devRef .tc main_v79) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((Bias5.final (V11 m ρ) c).trans (by
    show biasAdd (M := 100000) (N := 64) (W11 m ρ c (Proc.devRef .tc main_v77)) (W11 m ρ c (Proc.devRef .tc main_v78)) = _
    rw [b11_v77 m ρ c, b11_v78 m ρ c]
    exact (Bridge.add3 _ _ _).trans rfl))

end Cert.KernelIdeal.Result

end
-- ==== Proof.lean ====
/-
  A three-layer graph convolution encoder against its jnp reference, on the extended reals.

  Both programs first build, from the edge list, the source and destination index vectors (the edges followed by one
  self loop per node) and the symmetric normalization coefficient of every edge, by the same host operations. A layer
  is then: the node features times a weight matrix; the normalized aggregation (gather the rows at the sources, scale
  each by its edge's coefficient, add them up at the destinations); the bias added to every row; and, in the first two
  layers, the maximum with zero. The reference computes every stage in one host operation. The kernel's program
  computes the matrix products and the bias stages in pallas_calls over a grid of 25 row blocks of 4000 rows, its
  matmul operands rounded to bf16 — the identity at the ideal instance — and accumulated into zero; the aggregation
  between them is the reference's own host operations.

  So the two results are one function of the arguments once (1) each row block a pallas_call writes back is that
  block of the whole-array stage — the blocks tile the array —, (2) a matrix product into a zero accumulator is the
  host's dot_general: at the ideal instance both are the plain sum over the contracted axis, and (3) the bias reshaped
  to one row and broadcast inside the kernel is the reference's two broadcasts. None of these needs the inputs finite,
  and the precondition is not opened. The ideal pass rewrote nothing, so the preservation claim is trivial; the
  kernel's two frames are the generated ones, and the reference's frame is its run with the result dropped.
-/
import proofs.«155238_j79259326480547_1_alg».proof.Defs
import proofs.«155238_j79259326480547_1_alg».proof.Proof.Gen.Kernel
import proofs.«155238_j79259326480547_1_alg».proof.Proof.Gen.Kernel.Frame
import proofs.«155238_j79259326480547_1_alg».proof.Proof.Gen.KernelIdeal
import proofs.«155238_j79259326480547_1_alg».proof.Proof.Gen.KernelIdeal.Frame
import proofs.«155238_j79259326480547_1_alg».proof.Proof.Gen.ReferenceIdeal
import proofs.«155238_j79259326480547_1_alg».proof.Proof.Gen.Pre_finite_inputs
import proofs.«155238_j79259326480547_1_alg».proof.Proof.KernelRun
import proofs.«155238_j79259326480547_1_alg».proof.Proof.KernelValue
import proofs.«155238_j79259326480547_1_alg».proof.Proof.RunP
import proofs.«155238_j79259326480547_1_alg».proof.Proof.ReadP

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no pallas_call: its frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- Run from memories that agree on the eight arguments, the kernel's program and the reference both end, the
    arguments unchanged, with the reference's last stage of those arguments in their result buffers. -/
theorem algebraic : Cert.algebraic_KernelIdeal_ReferenceIdeal := by
  intro m ρ m' ρ' _ hagree
  refine ⟨fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Result.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v84_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
